-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : IVec S2x1600000 32) (main_arg1 : IVec S100000 32) (main_arg2 : FVec F S1x128 .f32) (main_arg3 : FVec F S128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S10000x1 : Shape := ⟨2, ![10000, 1]⟩
abbrev S10000x128 : Shape := ⟨2, ![10000, 128]⟩
abbrev S1700000x128 : Shape := ⟨2, ![1700000, 128]⟩
abbrev S512x128 : Shape := ⟨2, ![512, 128]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 122
  | .vmem => 35
  | .smem => 0
  | _ => 0

abbrev bufTy : (tb : Table) → Fin (tcTables nBuf tb) → BufTy
  | .hbm, ⟨0, _⟩ => ⟨S2x1600000, .i32⟩
  | .hbm, ⟨1, _⟩ => ⟨S100000, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .f32⟩
  | .hbm, ⟨51, _⟩ => ⟨S100000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x1, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S_, .f32⟩
  | .hbm, ⟨110, _⟩ => ⟨S512x128, .f32⟩
  | .hbm, ⟨111, _⟩ => ⟨S100000x1, .i32⟩
  | .hbm, ⟨112, _⟩ => ⟨S512x128, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S512, .f32⟩
  | .hbm, ⟨117, _⟩ => ⟨S100000x1, .i32⟩
  | .hbm, ⟨118, _⟩ => ⟨S512, .f32⟩
  | .hbm, ⟨119, _⟩ => ⟨S512x1, .f32⟩
  | .hbm, ⟨120, _⟩ => ⟨S1x10, .f32⟩
  | .hbm, ⟨121, _⟩ => ⟨S512x10, .f32⟩
  | .local _ .vmem, ⟨0, _⟩ => ⟨S10000x1, .f32⟩
  | .local _ .vmem, ⟨1, _⟩ => ⟨S10000x1, .f32⟩
  | .local _ .vmem, ⟨2, _⟩ => ⟨S1x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S512x128, .f32⟩
  | .local _ .vmem, ⟨31, _⟩ => ⟨S512x1, .f32⟩
  | .local _ .vmem, ⟨32, _⟩ => ⟨S128x10, .f32⟩
  | .local _ .vmem, ⟨33, _⟩ => ⟨S1x10, .f32⟩
  | .local _ .vmem, ⟨34, _⟩ => ⟨S512x10, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  shapeCasts_S512_S512x1 : S512.ShapeCasts S512x1
  shapeCasts_S10_S1x10 : S10.ShapeCasts S1x10
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x1_S1x128_S10000x128_1_0_0_1_n_n_wf : DotDims.WF S10000x1 S1x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1.size a ≤ S512x1.size a
  hwx6_1 : ∀ i : grid6.Coords, EltTy.bits .f32 = 32 ∨ (Rect.block (s := S512x1) S512x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x10.size a ≤ S128x10.size a
  hwx6_2 : ∀ i : grid6.Coords, EltTy.bits .f32 = 32 ∨ (Rect.block (s := S128x10) S128x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x10.size a ≤ S512x10.size a
  hwx6_4 : ∀ i : grid6.Coords, EltTy.bits .f32 = 32 ∨ (Rect.block (s := S512x10) S512x10.size (cc6_transform_4 i) (hinb6_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v30) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v86) S512x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S128x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S1x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S512x10.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S1700000x128 : Shape := ⟨2, ![1700000, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 156
  | .vmem => 0
  | .smem => 0
  | _ => 0

abbrev hbmTy0_0 (i : Nat) : BufTy := match i % 128 with
  | 0 => ⟨S2x1600000, .i32⟩
  | 1 => ⟨S100000, .i32⟩
  | 2 => ⟨S1x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .f32⟩
  | 51 => ⟨S100000x1, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x1, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .f32⟩
  | 122 => ⟨S512x128, .f32⟩
  | 123 => ⟨S100000x1, .i32⟩
  | 124 => ⟨S512x128, .f32⟩
  | 125 => ⟨S_, .f32⟩
  | 126 => ⟨S100000, .f32⟩
  | 127 => ⟨S_, .f32⟩
  | _ => ⟨S2x1600000, .i32⟩

abbrev hbmTy0_1 (i : Nat) : BufTy := match i % 128 with
  | 0 => ⟨S512, .f32⟩
  | 1 => ⟨S100000x1, .i32⟩
  | 2 => ⟨S512, .f32⟩
  | 3 => ⟨S_, .f32⟩
  | 4 => ⟨S512, .f32⟩
  | 5 => ⟨S512, .f32⟩
  | 6 => ⟨S512x1, .f32⟩
  | 7 => ⟨S512x128, .f32⟩
  | 8 => ⟨S512x128, .f32⟩
  | 9 => ⟨S512x10, .f32⟩
  | 10 => ⟨S1x10, .f32⟩
  | 11 => ⟨S512x10, .f32⟩
  | 12 => ⟨S512x10, .f32⟩
  | 13 => ⟨S_, .f32⟩
  | 14 => ⟨S512, .f32⟩
  | 15 => ⟨S_, .f32⟩
  | 16 => ⟨S512, .f32⟩
  | 17 => ⟨S512, .f32⟩
  | 18 => ⟨S512x1, .f32⟩
  | 19 => ⟨S512x10, .f32⟩
  | 20 => ⟨S512x10, .f32⟩
  | 21 => ⟨S512x10, .f32⟩
  | 22 => ⟨S_, .f32⟩
  | 23 => ⟨S512, .f32⟩
  | 24 => ⟨S512x1, .f32⟩
  | 25 => ⟨S512x1, .f32⟩
  | 26 => ⟨S512x10, .f32⟩
  | 27 => ⟨S512x10, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_cst : Ref sig .tc := ⟨.hbm, 118, rfl⟩
abbrev main_call3_v0 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call4_cst : Ref sig .tc := ⟨.hbm, 141, rfl⟩
abbrev main_call4_v0 : Ref sig .tc := ⟨.hbm, 142, rfl⟩
abbrev main_call4_cst_0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_cst_1 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_v101 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x128_S100000x128_1_0_0_1_n_n_wf : DotDims.WF S100000x1 S1x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KCarry.lean ====
/-
  What each segment of the program leaves alone. A stretch of host operations writes the buffers its operations name as
  results and no other; a pallas_call writes its windows' arrays and no other. So a buffer computed early — the source and
  destination index vectors of the edges with self-loops, the edge normalisation, an argument — is still there, unchanged,
  when a later segment reads it.
-/
import proofs.«104791_j84035330113566_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

/-! ## The buffers each stretch of host operations writes -/

/-- The results of `hostOps0`'s operations. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps0_1`'s operations. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps0_2`'s operations. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_cst_6, main_v30]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps1`'s operations. -/
abbrev hostOps1_W : List (Ref sig .tc) := [main_c_7, main_v32, main_v33, main_c_8, main_v34, main_v35, main_v36, main_v37, main_v38, main_v39, main_v40, main_v41, main_cst_9, main_v42, main_v43, main_v44, main_v45]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps3`'s operations. -/
abbrev hostOps3_W : List (Ref sig .tc) := [main_c_10, main_v48, main_v49, main_c_11, main_v50, main_v51, main_v52, main_v53, main_v54, main_v55, main_v56, main_v57, main_cst_12, main_v58, main_v59, main_v60, main_v61]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps5`'s operations. -/
abbrev hostOps5_W : List (Ref sig .tc) := [main_c_13, main_v64, main_v65, main_c_14, main_v66, main_v67, main_v68, main_v69, main_v70, main_v71, main_v72, main_v73, main_cst_15, main_v74, main_v75, main_v76, main_v77]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The results of `hostOps6`'s operations. -/
abbrev hostOps6_W : List (Ref sig .tc) := [main_cst_16, main_v79, main_v80, main_v81, main_cst_17, main_v82, main_cst_18, main_v83, main_v84, main_v85, main_v86, main_v87]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-! ## One segment at a time: a buffer the segment does not write keeps its contents -/
theorem keep1 (c : Dev nD) (b : Ref sig .tc) (h : b ∉ hostOps0_W) : W1 m ρ c (Proc.devRef .tc b) = W0 m ρ c (Proc.devRef .tc b) :=
  StableHlo.after_of_writes_sub hostOps0 _ hostOps0_writes h
theorem keep2 (c : Dev nD) (b : Ref sig .tc) (h : b ∉ hostOps0_1_W) : W2 m ρ c (Proc.devRef .tc b) = W1 m ρ c (Proc.devRef .tc b) :=
  StableHlo.after_of_writes_sub hostOps0_1 _ hostOps0_1_writes h
theorem keep3 (c : Dev nD) (b : Ref sig .tc) (h : b ∉ hostOps0_2_W) : W3 m ρ c (Proc.devRef .tc b) = W2 m ρ c (Proc.devRef .tc b) :=
  StableHlo.after_of_writes_sub hostOps0_2 _ hostOps0_2_writes h
theorem keep4 (c : Dev nD) (b : Ref sig .tc) (h : ∀ w, Pipeline.arrRef spec0 w ≠ b) : W4 m ρ c (Proc.devRef .tc b) = W3 m ρ c (Proc.devRef .tc b) :=
  W4_of_ne m ρ c b h
theorem keep5 (c : Dev nD) (b : Ref sig .tc) (h : b ∉ hostOps1_W) : W5 m ρ c (Proc.devRef .tc b) = W4 m ρ c (Proc.devRef .tc b) :=
  StableHlo.after_of_writes_sub hostOps1 _ hostOps1_writes h
theorem keep6 (c : Dev nD) (b : Ref sig .tc) (h : ∀ w, Pipeline.arrRef spec1 w ≠ b) : W6 m ρ c (Proc.devRef .tc b) = W5 m ρ c (Proc.devRef .tc b) :=
  W6_of_ne m ρ c b h
theorem keep7 (c : Dev nD) (b : Ref sig .tc) (h : ∀ w, Pipeline.arrRef spec2 w ≠ b) : W7 m ρ c (Proc.devRef .tc b) = W6 m ρ c (Proc.devRef .tc b) :=
  W7_of_ne m ρ c b h
theorem keep8 (c : Dev nD) (b : Ref sig .tc) (h : b ∉ hostOps3_W) : W8 m ρ c (Proc.devRef .tc b) = W7 m ρ c (Proc.devRef .tc b) :=
  StableHlo.after_of_writes_sub hostOps3 _ hostOps3_writes h
theorem keep9 (c : Dev nD) (b : Ref sig .tc) (h : ∀ w, Pipeline.arrRef spec3 w ≠ b) : W9 m ρ c (Proc.devRef .tc b) = W8 m ρ c (Proc.devRef .tc b) :=
  W9_of_ne m ρ c b h
theorem keep10 (c : Dev nD) (b : Ref sig .tc) (h : ∀ w, Pipeline.arrRef spec4 w ≠ b) : W10 m ρ c (Proc.devRef .tc b) = W9 m ρ c (Proc.devRef .tc b) :=
  W10_of_ne m ρ c b h
theorem keep11 (c : Dev nD) (b : Ref sig .tc) (h : b ∉ hostOps5_W) : W11 m ρ c (Proc.devRef .tc b) = W10 m ρ c (Proc.devRef .tc b) :=
  StableHlo.after_of_writes_sub hostOps5 _ hostOps5_writes h
theorem keep12 (c : Dev nD) (b : Ref sig .tc) (h : ∀ w, Pipeline.arrRef spec5 w ≠ b) : W12 m ρ c (Proc.devRef .tc b) = W11 m ρ c (Proc.devRef .tc b) :=
  W12_of_ne m ρ c b h
theorem keep13 (c : Dev nD) (b : Ref sig .tc) (h : b ∉ hostOps6_W) : W13 m ρ c (Proc.devRef .tc b) = W12 m ρ c (Proc.devRef .tc b) :=
  StableHlo.after_of_writes_sub hostOps6 _ hostOps6_writes h
theorem keep14 (c : Dev nD) (b : Ref sig .tc) (h : ∀ w, Pipeline.arrRef spec6 w ≠ b) : W14 m ρ c (Proc.devRef .tc b) = W13 m ρ c (Proc.devRef .tc b) :=
  W14_of_ne m ρ c b h

/-! ## The carried buffers, from where they are computed to where they are read -/
theorem W2_v3 (c : Dev nD) : W2 m ρ c (Proc.devRef .tc main_v3) = W1 m ρ c (Proc.devRef .tc main_v3) :=
  (keep2 m ρ c main_v3 (by decide))
theorem W4_v3 (c : Dev nD) : W4 m ρ c (Proc.devRef .tc main_v3) = W1 m ρ c (Proc.devRef .tc main_v3) :=
  (keep4 m ρ c main_v3 (by decide)).trans ((keep3 m ρ c main_v3 (by decide)).trans ((keep2 m ρ c main_v3 (by decide))))
theorem W7_v3 (c : Dev nD) : W7 m ρ c (Proc.devRef .tc main_v3) = W1 m ρ c (Proc.devRef .tc main_v3) :=
  (keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide)))))))
theorem W10_v3 (c : Dev nD) : W10 m ρ c (Proc.devRef .tc main_v3) = W1 m ρ c (Proc.devRef .tc main_v3) :=
  (keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide))))))))))
theorem W2_v6 (c : Dev nD) : W2 m ρ c (Proc.devRef .tc main_v6) = W1 m ρ c (Proc.devRef .tc main_v6) :=
  (keep2 m ρ c main_v6 (by decide))
theorem W4_v6 (c : Dev nD) : W4 m ρ c (Proc.devRef .tc main_v6) = W1 m ρ c (Proc.devRef .tc main_v6) :=
  (keep4 m ρ c main_v6 (by decide)).trans ((keep3 m ρ c main_v6 (by decide)).trans ((keep2 m ρ c main_v6 (by decide))))
theorem W7_v6 (c : Dev nD) : W7 m ρ c (Proc.devRef .tc main_v6) = W1 m ρ c (Proc.devRef .tc main_v6) :=
  (keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)))))))
theorem W10_v6 (c : Dev nD) : W10 m ρ c (Proc.devRef .tc main_v6) = W1 m ρ c (Proc.devRef .tc main_v6) :=
  (keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide))))))))))
theorem W4_v29 (c : Dev nD) : W4 m ρ c (Proc.devRef .tc main_v29) = W3 m ρ c (Proc.devRef .tc main_v29) :=
  (keep4 m ρ c main_v29 (by decide))
theorem W7_v29 (c : Dev nD) : W7 m ρ c (Proc.devRef .tc main_v29) = W3 m ρ c (Proc.devRef .tc main_v29) :=
  (keep7 m ρ c main_v29 (by decide)).trans ((keep6 m ρ c main_v29 (by decide)).trans ((keep5 m ρ c main_v29 (by decide)).trans ((keep4 m ρ c main_v29 (by decide)))))
theorem W10_v29 (c : Dev nD) : W10 m ρ c (Proc.devRef .tc main_v29) = W3 m ρ c (Proc.devRef .tc main_v29) :=
  (keep10 m ρ c main_v29 (by decide)).trans ((keep9 m ρ c main_v29 (by decide)).trans ((keep8 m ρ c main_v29 (by decide)).trans ((keep7 m ρ c main_v29 (by decide)).trans ((keep6 m ρ c main_v29 (by decide)).trans ((keep5 m ρ c main_v29 (by decide)).trans ((keep4 m ρ c main_v29 (by decide))))))))
theorem W3_arg2 (c : Dev nD) : W3 m ρ c (Proc.devRef .tc main_arg2) = W0 m ρ c (Proc.devRef .tc main_arg2) :=
  (keep3 m ρ c main_arg2 (by decide)).trans ((keep2 m ρ c main_arg2 (by decide)).trans ((keep1 m ρ c main_arg2 (by decide))))
theorem W4_arg3 (c : Dev nD) : W4 m ρ c (Proc.devRef .tc main_arg3) = W0 m ρ c (Proc.devRef .tc main_arg3) :=
  (keep4 m ρ c main_arg3 (by decide)).trans ((keep3 m ρ c main_arg3 (by decide)).trans ((keep2 m ρ c main_arg3 (by decide)).trans ((keep1 m ρ c main_arg3 (by decide)))))
theorem W6_arg4 (c : Dev nD) : W6 m ρ c (Proc.devRef .tc main_arg4) = W0 m ρ c (Proc.devRef .tc main_arg4) :=
  (keep6 m ρ c main_arg4 (by decide)).trans ((keep5 m ρ c main_arg4 (by decide)).trans ((keep4 m ρ c main_arg4 (by decide)).trans ((keep3 m ρ c main_arg4 (by decide)).trans ((keep2 m ρ c main_arg4 (by decide)).trans ((keep1 m ρ c main_arg4 (by decide)))))))
theorem W7_arg5 (c : Dev nD) : W7 m ρ c (Proc.devRef .tc main_arg5) = W0 m ρ c (Proc.devRef .tc main_arg5) :=
  (keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans ((keep1 m ρ c main_arg5 (by decide))))))))
theorem W9_arg6 (c : Dev nD) : W9 m ρ c (Proc.devRef .tc main_arg6) = W0 m ρ c (Proc.devRef .tc main_arg6) :=
  (keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans ((keep1 m ρ c main_arg6 (by decide))))))))))
theorem W10_arg7 (c : Dev nD) : W10 m ρ c (Proc.devRef .tc main_arg7) = W0 m ρ c (Proc.devRef .tc main_arg7) :=
  (keep10 m ρ c main_arg7 (by decide)).trans ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)))))))))))
theorem W12_arg1 (c : Dev nD) : W12 m ρ c (Proc.devRef .tc main_arg1) = W0 m ρ c (Proc.devRef .tc main_arg1) :=
  (keep12 m ρ c main_arg1 (by decide)).trans ((keep11 m ρ c main_arg1 (by decide)).trans ((keep10 m ρ c main_arg1 (by decide)).trans ((keep9 m ρ c main_arg1 (by decide)).trans ((keep8 m ρ c main_arg1 (by decide)).trans ((keep7 m ρ c main_arg1 (by decide)).trans ((keep6 m ρ c main_arg1 (by decide)).trans ((keep5 m ρ c main_arg1 (by decide)).trans ((keep4 m ρ c main_arg1 (by decide)).trans ((keep3 m ρ c main_arg1 (by decide)).trans ((keep2 m ρ c main_arg1 (by decide)).trans ((keep1 m ρ c main_arg1 (by decide)))))))))))))
theorem W12_arg9 (c : Dev nD) : W12 m ρ c (Proc.devRef .tc main_arg9) = W0 m ρ c (Proc.devRef .tc main_arg9) :=
  (keep12 m ρ c main_arg9 (by decide)).trans ((keep11 m ρ c main_arg9 (by decide)).trans ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)))))))))))))
theorem W13_arg8 (c : Dev nD) : W13 m ρ c (Proc.devRef .tc main_arg8) = W0 m ρ c (Proc.devRef .tc main_arg8) :=
  (keep13 m ρ c main_arg8 (by decide)).trans ((keep12 m ρ c main_arg8 (by decide)).trans ((keep11 m ρ c main_arg8 (by decide)).trans ((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans ((keep1 m ρ c main_arg8 (by decide))))))))))))))

end Cert.KernelIdeal.Keep

end
-- ==== Proof.KBiasRelu.lean ====
/-
  The three bias-and-relu pallas_calls. Each runs over ten grid points; point `t` loads rows 10000·t … 10000·t + 9999 of
  the aggregated features [100000, 128] and the bias row [1, 128], and stores max(x + bias, 0) to the same rows of the
  output. The row blocks tile the output, so after the call the output array is max(x + bias, 0) of the whole input,
  entry by entry, whatever the arrays hold when the call is entered.
-/
import proofs.«104791_j84035330113566_1_alg».proof.Proof.Gen.KernelIdeal.Frame
import Idealize.ShloMosaic.Lib.Pipeline.Value
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.SL.Sem
open Idealize.ShloMosaic.Pipeline (Dat Cfg Window)

variable {F : FTy → Type} [FloatOps F]

theorem hz2 : (![0, 0] : Fin 2 → Nat) = fun _ => 0 := funext fun a => by fin_cases a <;> rfl

/-- The bias row's index under an index of a row-blocked matrix: row 0, the same column. -/
abbrev rowOf {n : Nat} (i : (⟨2, ![n, 128]⟩ : Shape).Idx) : S1x128.Idx := fun a => match a with
  | ⟨0, _⟩ => ⟨0, Nat.one_pos⟩
  | ⟨1, _⟩ => ⟨(i 1).val, (i 1).isLt⟩

/-- max(x + bias, 0), entry by entry, over the whole [100000, 128] array. -/
def biasRelu (x : S100000x128.Idx → Elt F .f32) (b : S1x128.Idx → Elt F .f32) : S100000x128.Idx → Elt F .f32 :=
  fun i => FloatOps.maximumf (FloatOps.addf (x i) (b (rowOf i))) (FloatOps.ofBits .f32 0x00000000#32)

/-- The same on one [10000, 128] block. -/
def blockBiasRelu (x : Vec F S10000x128 .f32) (b : Vec F S1x128 .f32) : Vec F S10000x128 .f32 :=
  fun j => FloatOps.maximumf (FloatOps.addf (x j) (b (rowOf j))) (FloatOps.ofBits .f32 0x00000000#32)

/-- The row [1, 128] broadcast down a [10000, 128] block reads the row at the column. -/
theorem broadcastRow_apply (v : S1x128.Idx → Elt F .f32) (h : S1x128.Broadcasts S10000x128) (j : S10000x128.Idx) :
    broadcastTo S10000x128 v h j = v (rowOf j) := by
  refine broadcastTo_apply v h j (rowOf j) fun ax => ?_
  match ax with
  | ⟨0, _⟩ => show (0 : ℕ) = if (1 : ℕ) = 1 then 0 else (j 0).val; rw [if_pos rfl]
  | ⟨1, _⟩ => show (j 1).val = if (128 : ℕ) = 1 then 0 else (j 1).val; rw [if_neg (by decide)]

variable (V : (c : Dev nD) → (b : Ref sig .tc) → Buf (Elt F) ((c : Thread nD τ).loc b))

/-- The body's one stored value is the block form. -/
theorem blockBiasRelu_eq1 (x : Vec F S10000x128 .f32) (b : Vec F S1x128 .f32) : k1_pay1 x b = blockBiasRelu x b := by
  funext j
  unfold k1_pay1 blockBiasRelu
  simp only [shapeCast_self]
  show FloatOps.maximumf (FloatOps.addf (x j) (broadcastTo S10000x128 b broadcasts_S1x128_S10000x128 j)) _ = _
  rw [broadcastRow_apply]
  rfl

/-! ## pallas_call 1: bias and relu over ten row blocks -/

/-- The printed index maps of call 1, decided over its ten grid points: the row-blocked windows (input 0 and the
    output) sit at block row `t`, block column 0; the bias row is block (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `biasRelu` of the two input arrays as the call finds them. -/
theorem flushed1_eq (c : Dev nD) (t : Fin cfg1.N) :
    (dat1 V c).flushed 2 t = ((cfg1.win 2).blk t).view.read (Elt F) (biasRelu (V c main_v44) (V c main_v45)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S1x128) hz2]
  obtain ⟨e0, e1, e2, e3, e4, e5⟩ := idx_facts1 t
  funext j
  rw [show k1_pay1 (iblk1 V c 0 t) (iblk1 V c 1 t) = blockBiasRelu (iblk1 V c 0 t) (iblk1 V c 1 t) from blockBiasRelu_eq1 _ _]
  show FloatOps.maximumf (FloatOps.addf (V c main_v44 (((cfg1.win 0).blk t).view.emb j)) (V c main_v45 (((cfg1.win 1).blk t).view.emb (rowOf j)))) (FloatOps.ofBits .f32 0x00000000#32)
     = FloatOps.maximumf (FloatOps.addf (V c main_v44 (((cfg1.win 2).blk t).view.emb j)) (V c main_v45 (rowOf (((cfg1.win 2).blk t).view.emb j)))) (FloatOps.ofBits .f32 0x00000000#32)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (rowOf j) = rowOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- The ten row blocks tile the output: row `r` is in the block of point `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  obtain ⟨e0, e1, e2, e3, e4, e5⟩ := idx_facts1 t
  refine ⟨t, flush1_2 t, ?_⟩
  rw [mem_blk1]
  intro a
  have ht : t.val = (i 0).val / 10000 := rfl
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array of call 1 after its ten points: bias and relu of the two input arrays as the call finds them. -/
theorem final1 (c : Dev nD) : (dat1 V c).arrAt 2 cfg1.N = biasRelu (V c main_v44) (V c main_v45) :=
  (dat1 V c).arrAt_eq_of_cover 2 _ (fun t _ => flushed1_eq V c t) (cover1)

/-- The body's one stored value is the block form. -/
theorem blockBiasRelu_eq3 (x : Vec F S10000x128 .f32) (b : Vec F S1x128 .f32) : k3_pay1 x b = blockBiasRelu x b := by
  funext j
  unfold k3_pay1 blockBiasRelu
  simp only [shapeCast_self]
  show FloatOps.maximumf (FloatOps.addf (x j) (broadcastTo S10000x128 b broadcasts_S1x128_S10000x128 j)) _ = _
  rw [broadcastRow_apply]
  rfl

/-! ## pallas_call 3: bias and relu over ten row blocks -/

/-- The printed index maps of call 3, decided over its ten grid points: the row-blocked windows (input 0 and the
    output) sit at block row `t`, block column 0; the bias row is block (0, 0) at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `biasRelu` of the two input arrays as the call finds them. -/
theorem flushed3_eq (c : Dev nD) (t : Fin cfg3.N) :
    (dat3 V c).flushed 2 t = ((cfg3.win 2).blk t).view.read (Elt F) (biasRelu (V c main_v60) (V c main_v61)) := by
  show (cfg3.win 2).cut (grid3.coords t) ((dat3 V c).after 2 t) = _
  rw [after3_2]
  unfold out3_2
  rw [View.canon_unit_zero hz2]
  simp only [View.ld_unit_zero (S := S10000x128) hz2, View.ld_unit_zero (S := S1x128) hz2]
  obtain ⟨e0, e1, e2, e3, e4, e5⟩ := idx_facts3 t
  funext j
  rw [show k3_pay1 (iblk3 V c 0 t) (iblk3 V c 1 t) = blockBiasRelu (iblk3 V c 0 t) (iblk3 V c 1 t) from blockBiasRelu_eq3 _ _]
  show FloatOps.maximumf (FloatOps.addf (V c main_v60 (((cfg3.win 0).blk t).view.emb j)) (V c main_v61 (((cfg3.win 1).blk t).view.emb (rowOf j)))) (FloatOps.ofBits .f32 0x00000000#32)
     = FloatOps.maximumf (FloatOps.addf (V c main_v60 (((cfg3.win 2).blk t).view.emb j)) (V c main_v61 (rowOf (((cfg3.win 2).blk t).view.emb j)))) (FloatOps.ofBits .f32 0x00000000#32)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (rowOf j) = rowOf (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the output array is in point `t`'s block iff each coordinate is in the block's range. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v62).slice (win3_2.rect t)).set ↔ _
  rw [View.set_slice_whole, Rect.mem_set_unit]
  exact Iff.rfl

/-- The ten row blocks tile the output: row `r` is in the block of point `r / 10000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  let t : Fin cfg3.N := ⟨(i 0).val / 10000, by show (i 0).val / 10000 < grid3.N; omega⟩
  obtain ⟨e0, e1, e2, e3, e4, e5⟩ := idx_facts3 t
  refine ⟨t, flush3_2 t, ?_⟩
  rw [mem_blk3]
  intro a
  have ht : t.val = (i 0).val / 10000 := rfl
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array of call 3 after its ten points: bias and relu of the two input arrays as the call finds them. -/
theorem final3 (c : Dev nD) : (dat3 V c).arrAt 2 cfg3.N = biasRelu (V c main_v60) (V c main_v61) :=
  (dat3 V c).arrAt_eq_of_cover 2 _ (fun t _ => flushed3_eq V c t) (cover3)

/-- The body's one stored value is the block form. -/
theorem blockBiasRelu_eq5 (x : Vec F S10000x128 .f32) (b : Vec F S1x128 .f32) : k5_pay1 x b = blockBiasRelu x b := by
  funext j
  unfold k5_pay1 blockBiasRelu
  simp only [shapeCast_self]
  show FloatOps.maximumf (FloatOps.addf (x j) (broadcastTo S10000x128 b broadcasts_S1x128_S10000x128 j)) _ = _
  rw [broadcastRow_apply]
  rfl

/-! ## pallas_call 5: bias and relu over ten row blocks -/

/-- The printed index maps of call 5, decided over its ten grid points: the row-blocked windows (input 0 and the
    output) sit at block row `t`, block column 0; the bias row is block (0, 0) at every point. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point `t` writes back is block `t` of `biasRelu` of the two input arrays as the call finds them. -/
theorem flushed5_eq (c : Dev nD) (t : Fin cfg5.N) :
    (dat5 V c).flushed 2 t = ((cfg5.win 2).blk t).view.read (Elt F) (biasRelu (V c main_v76) (V c main_v77)) := by
  show (cfg5.win 2).cut (grid5.coords t) ((dat5 V c).after 2 t) = _
  rw [after5_2]
  unfold out5_2
  rw [View.canon_unit_zero hz2]
  simp only [View.ld_unit_zero (S := S10000x128) hz2, View.ld_unit_zero (S := S1x128) hz2]
  obtain ⟨e0, e1, e2, e3, e4, e5⟩ := idx_facts5 t
  funext j
  rw [show k5_pay1 (iblk5 V c 0 t) (iblk5 V c 1 t) = blockBiasRelu (iblk5 V c 0 t) (iblk5 V c 1 t) from blockBiasRelu_eq5 _ _]
  show FloatOps.maximumf (FloatOps.addf (V c main_v76 (((cfg5.win 0).blk t).view.emb j)) (V c main_v77 (((cfg5.win 1).blk t).view.emb (rowOf j)))) (FloatOps.ofBits .f32 0x00000000#32)
     = FloatOps.maximumf (FloatOps.addf (V c main_v76 (((cfg5.win 2).blk t).view.emb j)) (V c main_v77 (rowOf (((cfg5.win 2).blk t).view.emb j)))) (FloatOps.ofBits .f32 0x00000000#32)
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (rowOf j) = rowOf (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  rw [h0, h1]

/-- An index of the output array is in point `t`'s block iff each coordinate is in the block's range. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v78).slice (win5_2.rect t)).set ↔ _
  rw [View.set_slice_whole, Rect.mem_set_unit]
  exact Iff.rfl

/-- The ten row blocks tile the output: row `r` is in the block of point `r / 10000`. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 10 := N_5
  let t : Fin cfg5.N := ⟨(i 0).val / 10000, by show (i 0).val / 10000 < grid5.N; omega⟩
  obtain ⟨e0, e1, e2, e3, e4, e5⟩ := idx_facts5 t
  refine ⟨t, flush5_2 t, ?_⟩
  rw [mem_blk5]
  intro a
  have ht : t.val = (i 0).val / 10000 := rfl
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The output array of call 5 after its ten points: bias and relu of the two input arrays as the call finds them. -/
theorem final5 (c : Dev nD) : (dat5 V c).arrAt 2 cfg5.N = biasRelu (V c main_v76) (V c main_v77) :=
  (dat5 V c).arrAt_eq_of_cover 2 _ (fun t _ => flushed5_eq V c t) (cover5)

end Cert.KernelIdeal.Rows

end
-- ==== Proof.KMat.lean ====
/-
  The three matrix-product pallas_calls. Each runs over ten grid points; point `t` loads rows 10000·t … 10000·t + 9999 of
  the node features and the whole weight matrix, and stores their product to the same rows of the output. On extended
  reals an entry of the stored block is the sum over the contracted axis of row entry times weight entry, so it is the
  entry of the product of the whole arrays; the row blocks tile the output, so after the call the output array is that
  product, whatever the arrays hold when the call is entered.
-/
import proofs.«104791_j84035330113566_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

theorem hz2 : (![0, 0] : Fin 2 → Nat) = fun _ => 0 := funext fun a => by fin_cases a <;> rfl

/-- The product of an [M, K] array and a [K, N] array on extended reals, entry by entry. -/
def matProd {M K N : ℕ} (x : (⟨2, ![M, K]⟩ : Shape).Idx → EReal) (w : (⟨2, ![K, N]⟩ : Shape).Idx → EReal) :
    (⟨2, ![M, N]⟩ : Shape).Idx → EReal := fun i => ∑ q : Fin K, x (ix2 (i 0) q) * w (ix2 q (i 1))

variable (V : (c : Dev nD) → (b : Ref sig .tc) → Buf (Elt Ideal) ((c : Thread nD τ).loc b))

/-! ## pallas_call 0: [100000, 1] times [1, 128] over ten row blocks -/

theorem lhs0_0 (j : S10000x128.Idx) (q : dot_S10000x1_S1x128_S10000x128_1_0_0_1_n_n.contr.Idx) : (dot_S10000x1_S1x128_S10000x128_1_0_0_1_n_n.lhsIdx j q 0).val = (j 0).val := by
  unfold DotDims.lhsIdx
  rw [dif_neg (show ¬(0 : Fin S10000x1.rank) ∈ dot_S10000x1_S1x128_S10000x128_1_0_0_1_n_n.lhsBatch by decide), dif_pos (show (0 : Fin S10000x1.rank) ∈ dot_S10000x1_S1x128_S10000x128_1_0_0_1_n_n.lhsNonContracting by decide)]
  rfl
theorem lhs0_1 (j : S10000x128.Idx) (q : dot_S10000x1_S1x128_S10000x128_1_0_0_1_n_n.contr.Idx) : (dot_S10000x1_S1x128_S10000x128_1_0_0_1_n_n.lhsIdx j q 1).val = (q ⟨0, by decide⟩).val :=
  dot_S10000x1_S1x128_S10000x128_1_0_0_1_n_n.lhsIdx_val_of_single rfl j q
theorem rhs0_0 (j : S10000x128.Idx) (q : dot_S10000x1_S1x128_S10000x128_1_0_0_1_n_n.contr.Idx) : (dot_S10000x1_S1x128_S10000x128_1_0_0_1_n_n.rhsIdx j q 0).val = (q ⟨0, by decide⟩).val :=
  dot_S10000x1_S1x128_S10000x128_1_0_0_1_n_n.rhsIdx_val_of_single rfl j q
theorem rhs0_1 (j : S10000x128.Idx) (q : dot_S10000x1_S1x128_S10000x128_1_0_0_1_n_n.contr.Idx) : (dot_S10000x1_S1x128_S10000x128_1_0_0_1_n_n.rhsIdx j q 1).val = (j 1).val := by
  unfold DotDims.rhsIdx
  rw [dif_neg (show ¬(1 : Fin S1x128.rank) ∈ dot_S10000x1_S1x128_S10000x128_1_0_0_1_n_n.rhsBatch by decide), dif_pos (show (1 : Fin S1x128.rank) ∈ dot_S10000x1_S1x128_S10000x128_1_0_0_1_n_n.rhsNonContracting by decide)]
  rfl

/-- The body's one stored value at an entry of its block: row `j 0` of the loaded rows against column `j 1` of the
    loaded weights (the matrix unit accumulates from zero; the casts to bf16 are the identity on extended reals). -/
theorem pay0_apply (x : Vec Ideal S10000x1 .f32) (w : Vec Ideal S1x128 .f32) (j : S10000x128.Idx) :
    k0_pay1 (F := Ideal) x w j = ∑ q : Fin 1, x (ix2 (j 0) q) * w (ix2 q (j 1)) := by
  unfold k0_pay1
  simp only [shapeCast_self]
  show FloatOps.matmul dot_S10000x1_S1x128_S10000x128_1_0_0_1_n_n none (truncf (F := Ideal) .bf16 x bitsLt_bf16_f32) (truncf (F := Ideal) .bf16 w bitsLt_bf16_f32) (constant (F := Ideal) S10000x128 .f32 0x00000000#32) j = _
  rw [Ideal.matmul_constant_zero_apply, ← Equiv.sum_comp (contrEquiv1 dot_S10000x1_S1x128_S10000x128_1_0_0_1_n_n 1 rfl rfl).symm]
  refine Finset.sum_congr rfl fun q _ => ?_
  have hq := contrEquiv1_symm_val dot_S10000x1_S1x128_S10000x128_1_0_0_1_n_n 1 rfl rfl q
  have el : dot_S10000x1_S1x128_S10000x128_1_0_0_1_n_n.lhsIdx j ((contrEquiv1 dot_S10000x1_S1x128_S10000x128_1_0_0_1_n_n 1 rfl rfl).symm q) = ix2 (j 0) q := funext fun a => Fin.ext (by
    match a with
    | ⟨0, _⟩ => exact lhs0_0 _ _
    | ⟨1, _⟩ => exact (lhs0_1 _ _).trans hq)
  have er : dot_S10000x1_S1x128_S10000x128_1_0_0_1_n_n.rhsIdx j ((contrEquiv1 dot_S10000x1_S1x128_S10000x128_1_0_0_1_n_n 1 rfl rfl).symm q) = ix2 q (j 1) := funext fun a => Fin.ext (by
    match a with
    | ⟨0, _⟩ => exact (rhs0_0 _ _).trans hq
    | ⟨1, _⟩ => exact rhs0_1 _ _)
  rw [el, er]
  rfl

/-- The same as an equation of blocks. -/
theorem pay0_eq (x : Vec Ideal S10000x1 .f32) (w : Vec Ideal S1x128 .f32) :
    k0_pay1 (F := Ideal) x w = fun j => ∑ q : Fin 1, x (ix2 (j 0) q) * w (ix2 q (j 1)) := funext (pay0_apply x w)

/-- The printed index maps of call 0, decided over its ten grid points: the row-blocked windows (input 0 and the
    output) sit at block row `t`, block column 0; the weights are block (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two input arrays as the call finds them. -/
theorem flushed0_eq (c : Dev nD) (t : Fin cfg0.N) :
    (dat0 V c).flushed 2 t = ((cfg0.win 2).blk t).view.read (Elt Ideal) (matProd (V c main_v30) (V c main_arg2)) := by
  show (cfg0.win 2).cut (grid0.coords t) ((dat0 V c).after 2 t) = _
  rw [after0_2]
  unfold out0_2
  rw [View.canon_unit_zero hz2]
  simp only [View.ld_unit_zero (S := S10000x1) hz2, View.ld_unit_zero (S := S1x128) hz2]
  obtain ⟨e0, e1, e2, e3, e4, e5⟩ := idx_facts0 t
  rw [show k0_pay1 (F := Ideal) (iblk0 V c 0 t) (iblk0 V c 1 t) = _ from pay0_eq _ _]
  funext j
  show ∑ q : Fin 1, (@id (S100000x1.Idx → EReal) (V c main_v30)) (((cfg0.win 0).blk t).view.emb (ix2 (j 0) q)) * (@id (S1x128.Idx → EReal) (V c main_arg2)) (((cfg0.win 1).blk t).view.emb (ix2 q (j 1)))
     = ∑ q : Fin 1, (@id (S100000x1.Idx → EReal) (V c main_v30)) (ix2 ((((cfg0.win 2).blk t).view.emb j) 0) q) * (@id (S1x128.Idx → EReal) (V c main_arg2)) (ix2 q ((((cfg0.win 2).blk t).view.emb j) 1))
  refine Finset.sum_congr rfl fun q _ => ?_
  have h0 : ((cfg0.win 0).blk t).view.emb (ix2 (j 0) q) = ix2 ((((cfg0.win 2).blk t).view.emb j) 0) q := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 1 + 1 * q.val = q.val; omega
  have h1 : ((cfg0.win 1).blk t).view.emb (ix2 q (j 1)) = ix2 q ((((cfg0.win 2).blk t).view.emb j) 1) := by
    funext a; apply Fin.ext
    match a with
    | ⟨0, _⟩ => show win0_1.index t (0 : Fin 2) * 1 + 1 * q.val = q.val; omega
    | ⟨1, _⟩ => show win0_1.index t (1 : Fin 2) * 128 + 1 * (j 1).val = win0_2.index t (1 : Fin 2) * 128 + 1 * (j 1).val; omega
  rw [h0, h1]
  rfl

/-- An index of the output array is in point `t`'s block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The ten row blocks tile the output: row `r` is in the block of point `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  obtain ⟨e0, e1, e2, e3, e4, e5⟩ := idx_facts0 t
  refine ⟨t, flush0_2 t, ?_⟩
  rw [mem_blk0]
  intro a
  have ht : t.val = (i 0).val / 10000 := rfl
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array of call 0 after its ten points: the product of the two input arrays as the call finds them. -/
theorem final0 (c : Dev nD) : (dat0 V c).arrAt 2 cfg0.N = matProd (V c main_v30) (V c main_arg2) :=
  (dat0 V c).arrAt_eq_of_cover 2 _ (fun t _ => flushed0_eq V c t) (cover0)

/-! ## pallas_call 2: [100000, 128] times [128, 128] over ten row blocks -/

theorem lhs2_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs2_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs2_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs2_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's one stored value at an entry of its block: row `j 0` of the loaded rows against column `j 1` of the
    loaded weights (the matrix unit accumulates from zero; the casts to bf16 are the identity on extended reals). -/
theorem pay2_apply (x : Vec Ideal S10000x128 .f32) (w : Vec Ideal S128x128 .f32) (j : S10000x128.Idx) :
    k2_pay1 (F := Ideal) x w j = ∑ q : Fin 128, x (ix2 (j 0) q) * w (ix2 q (j 1)) := by
  unfold k2_pay1
  simp only [shapeCast_self]
  show FloatOps.matmul dot_S10000x128_S128x128_S10000x128_1_0_0_1_n_n none (truncf (F := Ideal) .bf16 x bitsLt_bf16_f32) (truncf (F := Ideal) .bf16 w bitsLt_bf16_f32) (constant (F := Ideal) S10000x128 .f32 0x00000000#32) j = _
  rw [Ideal.matmul_constant_zero_apply, ← Equiv.sum_comp (contrEquiv1 dot_S10000x128_S128x128_S10000x128_1_0_0_1_n_n 128 rfl rfl).symm]
  refine Finset.sum_congr rfl fun q _ => ?_
  have hq := contrEquiv1_symm_val dot_S10000x128_S128x128_S10000x128_1_0_0_1_n_n 128 rfl rfl q
  have el : dot_S10000x128_S128x128_S10000x128_1_0_0_1_n_n.lhsIdx j ((contrEquiv1 dot_S10000x128_S128x128_S10000x128_1_0_0_1_n_n 128 rfl rfl).symm q) = ix2 (j 0) q := funext fun a => Fin.ext (by
    match a with
    | ⟨0, _⟩ => exact lhs2_0 _ _
    | ⟨1, _⟩ => exact (lhs2_1 _ _).trans hq)
  have er : dot_S10000x128_S128x128_S10000x128_1_0_0_1_n_n.rhsIdx j ((contrEquiv1 dot_S10000x128_S128x128_S10000x128_1_0_0_1_n_n 128 rfl rfl).symm q) = ix2 q (j 1) := funext fun a => Fin.ext (by
    match a with
    | ⟨0, _⟩ => exact (rhs2_0 _ _).trans hq
    | ⟨1, _⟩ => exact rhs2_1 _ _)
  rw [el, er]
  rfl

/-- The same as an equation of blocks. -/
theorem pay2_eq (x : Vec Ideal S10000x128 .f32) (w : Vec Ideal S128x128 .f32) :
    k2_pay1 (F := Ideal) x w = fun j => ∑ q : Fin 128, x (ix2 (j 0) q) * w (ix2 q (j 1)) := funext (pay2_apply x w)

/-- The printed index maps of call 2, decided over its ten grid points: the row-blocked windows (input 0 and the
    output) sit at block row `t`, block column 0; the weights are block (0, 0) at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the product of the two input arrays as the call finds them. -/
theorem flushed2_eq (c : Dev nD) (t : Fin cfg2.N) :
    (dat2 V c).flushed 2 t = ((cfg2.win 2).blk t).view.read (Elt Ideal) (matProd (V c main_v46) (V c main_arg4)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  obtain ⟨e0, e1, e2, e3, e4, e5⟩ := idx_facts2 t
  rw [show k2_pay1 (F := Ideal) (iblk2 V c 0 t) (iblk2 V c 1 t) = _ from pay2_eq _ _]
  funext j
  show ∑ q : Fin 128, (@id (S100000x128.Idx → EReal) (V c main_v46)) (((cfg2.win 0).blk t).view.emb (ix2 (j 0) q)) * (@id (S128x128.Idx → EReal) (V c main_arg4)) (((cfg2.win 1).blk t).view.emb (ix2 q (j 1)))
     = ∑ q : Fin 128, (@id (S100000x128.Idx → EReal) (V c main_v46)) (ix2 ((((cfg2.win 2).blk t).view.emb j) 0) q) * (@id (S128x128.Idx → EReal) (V c main_arg4)) (ix2 q ((((cfg2.win 2).blk t).view.emb j) 1))
  refine Finset.sum_congr rfl fun q _ => ?_
  have h0 : ((cfg2.win 0).blk t).view.emb (ix2 (j 0) q) = ix2 ((((cfg2.win 2).blk t).view.emb j) 0) q := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * q.val = q.val; omega
  have h1 : ((cfg2.win 1).blk t).view.emb (ix2 q (j 1)) = ix2 q ((((cfg2.win 2).blk t).view.emb j) 1) := by
    funext a; apply Fin.ext
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega
  rw [h0, h1]
  rfl

/-- An index of the output array is in point `t`'s block iff each coordinate is in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- The ten row blocks tile the output: row `r` is in the block of point `r / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; omega⟩
  obtain ⟨e0, e1, e2, e3, e4, e5⟩ := idx_facts2 t
  refine ⟨t, flush2_2 t, ?_⟩
  rw [mem_blk2]
  intro a
  have ht : t.val = (i 0).val / 10000 := rfl
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array of call 2 after its ten points: the product of the two input arrays as the call finds them. -/
theorem final2 (c : Dev nD) : (dat2 V c).arrAt 2 cfg2.N = matProd (V c main_v46) (V c main_arg4) :=
  (dat2 V c).arrAt_eq_of_cover 2 _ (fun t _ => flushed2_eq V c t) (cover2)

/-! ## pallas_call 4: [100000, 128] times [128, 128] over ten row blocks -/

theorem lhs4_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs4_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs4_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs4_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's one stored value at an entry of its block: row `j 0` of the loaded rows against column `j 1` of the
    loaded weights (the matrix unit accumulates from zero; the casts to bf16 are the identity on extended reals). -/
theorem pay4_apply (x : Vec Ideal S10000x128 .f32) (w : Vec Ideal S128x128 .f32) (j : S10000x128.Idx) :
    k4_pay1 (F := Ideal) x w j = ∑ q : Fin 128, x (ix2 (j 0) q) * w (ix2 q (j 1)) := by
  unfold k4_pay1
  simp only [shapeCast_self]
  show FloatOps.matmul dot_S10000x128_S128x128_S10000x128_1_0_0_1_n_n none (truncf (F := Ideal) .bf16 x bitsLt_bf16_f32) (truncf (F := Ideal) .bf16 w bitsLt_bf16_f32) (constant (F := Ideal) S10000x128 .f32 0x00000000#32) j = _
  rw [Ideal.matmul_constant_zero_apply, ← Equiv.sum_comp (contrEquiv1 dot_S10000x128_S128x128_S10000x128_1_0_0_1_n_n 128 rfl rfl).symm]
  refine Finset.sum_congr rfl fun q _ => ?_
  have hq := contrEquiv1_symm_val dot_S10000x128_S128x128_S10000x128_1_0_0_1_n_n 128 rfl rfl q
  have el : dot_S10000x128_S128x128_S10000x128_1_0_0_1_n_n.lhsIdx j ((contrEquiv1 dot_S10000x128_S128x128_S10000x128_1_0_0_1_n_n 128 rfl rfl).symm q) = ix2 (j 0) q := funext fun a => Fin.ext (by
    match a with
    | ⟨0, _⟩ => exact lhs4_0 _ _
    | ⟨1, _⟩ => exact (lhs4_1 _ _).trans hq)
  have er : dot_S10000x128_S128x128_S10000x128_1_0_0_1_n_n.rhsIdx j ((contrEquiv1 dot_S10000x128_S128x128_S10000x128_1_0_0_1_n_n 128 rfl rfl).symm q) = ix2 q (j 1) := funext fun a => Fin.ext (by
    match a with
    | ⟨0, _⟩ => exact (rhs4_0 _ _).trans hq
    | ⟨1, _⟩ => exact rhs4_1 _ _)
  rw [el, er]
  rfl

/-- The same as an equation of blocks. -/
theorem pay4_eq (x : Vec Ideal S10000x128 .f32) (w : Vec Ideal S128x128 .f32) :
    k4_pay1 (F := Ideal) x w = fun j => ∑ q : Fin 128, x (ix2 (j 0) q) * w (ix2 q (j 1)) := funext (pay4_apply x w)

/-- The printed index maps of call 4, decided over its ten grid points: the row-blocked windows (input 0 and the
    output) sit at block row `t`, block column 0; the weights are block (0, 0) at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the product of the two input arrays as the call finds them. -/
theorem flushed4_eq (c : Dev nD) (t : Fin cfg4.N) :
    (dat4 V c).flushed 2 t = ((cfg4.win 2).blk t).view.read (Elt Ideal) (matProd (V c main_v62) (V c main_arg6)) := by
  show (cfg4.win 2).cut (grid4.coords t) ((dat4 V c).after 2 t) = _
  rw [after4_2]
  unfold out4_2
  rw [View.canon_unit_zero hz2]
  simp only [View.ld_unit_zero (S := S10000x128) hz2, View.ld_unit_zero (S := S128x128) hz2]
  obtain ⟨e0, e1, e2, e3, e4, e5⟩ := idx_facts4 t
  rw [show k4_pay1 (F := Ideal) (iblk4 V c 0 t) (iblk4 V c 1 t) = _ from pay4_eq _ _]
  funext j
  show ∑ q : Fin 128, (@id (S100000x128.Idx → EReal) (V c main_v62)) (((cfg4.win 0).blk t).view.emb (ix2 (j 0) q)) * (@id (S128x128.Idx → EReal) (V c main_arg6)) (((cfg4.win 1).blk t).view.emb (ix2 q (j 1)))
     = ∑ q : Fin 128, (@id (S100000x128.Idx → EReal) (V c main_v62)) (ix2 ((((cfg4.win 2).blk t).view.emb j) 0) q) * (@id (S128x128.Idx → EReal) (V c main_arg6)) (ix2 q ((((cfg4.win 2).blk t).view.emb j) 1))
  refine Finset.sum_congr rfl fun q _ => ?_
  have h0 : ((cfg4.win 0).blk t).view.emb (ix2 (j 0) q) = ix2 ((((cfg4.win 2).blk t).view.emb j) 0) q := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * q.val = q.val; omega
  have h1 : ((cfg4.win 1).blk t).view.emb (ix2 q (j 1)) = ix2 q ((((cfg4.win 2).blk t).view.emb j) 1) := by
    funext a; apply Fin.ext
    match a with
    | ⟨0, _⟩ => show win4_1.index t (0 : Fin 2) * 128 + 1 * q.val = q.val; omega
    | ⟨1, _⟩ => show win4_1.index t (1 : Fin 2) * 128 + 1 * (j 1).val = win4_2.index t (1 : Fin 2) * 128 + 1 * (j 1).val; omega
  rw [h0, h1]
  rfl

/-- An index of the output array is in point `t`'s block iff each coordinate is in the block's range. -/
theorem mem_blk4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v63).slice (win4_2.rect t)).set ↔ _
  rw [View.set_slice_whole, Rect.mem_set_unit]
  exact Iff.rfl

/-- The ten row blocks tile the output: row `r` is in the block of point `r / 10000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 10 := N_4
  let t : Fin cfg4.N := ⟨(i 0).val / 10000, by show (i 0).val / 10000 < grid4.N; omega⟩
  obtain ⟨e0, e1, e2, e3, e4, e5⟩ := idx_facts4 t
  refine ⟨t, flush4_2 t, ?_⟩
  rw [mem_blk4]
  intro a
  have ht : t.val = (i 0).val / 10000 := rfl
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The output array of call 4 after its ten points: the product of the two input arrays as the call finds them. -/
theorem final4 (c : Dev nD) : (dat4 V c).arrAt 2 cfg4.N = matProd (V c main_v62) (V c main_arg6) :=
  (dat4 V c).arrAt_eq_of_cover 2 _ (fun t _ => flushed4_eq V c t) (cover4)

end Cert.KernelIdeal.Mat

end
-- ==== Proof.KLast.lean ====
/-
  The last pallas_call: pooling, the classifier and the log-softmax, at one grid point. Each of its five windows is its
  whole array (block (0, 0) of an array of one block), so the body's loads read the four input arrays as the call finds
  them and its one store writes the whole output: after the call the output array is the body's stored value of those
  four arrays.
-/
import proofs.«104791_j84035330113566_1_alg».proof.Proof.Gen.KernelIdeal.Frame
import Idealize.ShloMosaic.Lib.Pipeline.Value
import Idealize.ShloMosaic.Lib.ValueIdx

set_option maxRecDepth 16384

noncomputable section

namespace Cert.KernelIdeal.Last

open Cert.KernelIdeal Cert.KernelIdeal.Gen
open Idealize.ShloMosaic Idealize.ShloMosaic.TcCoe Idealize.SL.Sem
open Idealize.ShloMosaic.Pipeline (Dat Cfg Window)

variable {F : FTy → Type} [FloatOps F]

theorem hz2 : (![0, 0] : Fin 2 → Nat) = fun _ => 0 := funext fun a => by fin_cases a <;> rfl

variable (V : (c : Dev nD) → (b : Ref sig .tc) → Buf (Elt F) ((c : Thread nD τ).loc b))

/-- The printed index maps of the call, decided over its one grid point: every window is block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The per-graph sums' block at the point is the whole array. -/
theorem iblk6_0 (c : Dev nD) (t : Fin cfg6.N) : iblk6 V c 0 t = V c main_v81 := by
  obtain ⟨e0, e1, -⟩ := idx_facts6 t
  funext y
  show V c main_v81 (((cfg6.win 0).blk t).view.emb y) = V c main_v81 y
  refine congrArg _ (funext fun a => Fin.ext ?_)
  match a with
  | ⟨0, _⟩ => show win6_0.index t (0 : Fin 2) * 512 + 1 * (y 0).val = (y 0).val; omega
  | ⟨1, _⟩ => show win6_0.index t (1 : Fin 2) * 128 + 1 * (y 1).val = (y 1).val; omega

/-- The per-graph counts' block at the point is the whole array. -/
theorem iblk6_1 (c : Dev nD) (t : Fin cfg6.N) : iblk6 V c 1 t = V c main_v86 := by
  obtain ⟨-, -, e2, e3, -⟩ := idx_facts6 t
  funext y
  show V c main_v86 (((cfg6.win 1).blk t).view.emb y) = V c main_v86 y
  refine congrArg _ (funext fun a => Fin.ext ?_)
  match a with
  | ⟨0, _⟩ => show win6_1.index t (0 : Fin 2) * 512 + 1 * (y 0).val = (y 0).val; omega
  | ⟨1, _⟩ => show win6_1.index t (1 : Fin 2) * 1 + 1 * (y 1).val = (y 1).val; omega

/-- The classifier weights' block at the point is the whole array. -/
theorem iblk6_2 (c : Dev nD) (t : Fin cfg6.N) : iblk6 V c 2 t = V c main_arg8 := by
  obtain ⟨-, -, -, -, e4, e5, -⟩ := idx_facts6 t
  funext y
  show V c main_arg8 (((cfg6.win 2).blk t).view.emb y) = V c main_arg8 y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 10 + 1 * (y 1).val = (y 1).val; omega

/-- The classifier bias row's block at the point is the whole array. -/
theorem iblk6_3 (c : Dev nD) (t : Fin cfg6.N) : iblk6 V c 3 t = V c main_v87 := by
  obtain ⟨-, -, -, -, -, -, e6, e7, -⟩ := idx_facts6 t
  funext y
  show V c main_v87 (((cfg6.win 3).blk t).view.emb y) = V c main_v87 y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 10 + 1 * (y 1).val = (y 1).val; omega

/-- What the point writes back is the whole stored value, read through the output's one block. -/
theorem flushed6_eq (c : Dev nD) (t : Fin cfg6.N) :
    (dat6 V c).flushed 4 t = ((cfg6.win 4).blk t).view.read (Elt F)
      (k6_pay1 (V c main_v86) (V c main_v81) (V c main_arg8) (V c main_v87)) := by
  show (cfg6.win 4).cut (grid6.coords t) ((dat6 V c).after 4 t) = _
  rw [after6_4]
  unfold out6_4
  rw [View.canon_unit_zero hz2]
  simp only [View.ld_unit_zero (S := S512x128) hz2, View.ld_unit_zero (S := S512x1) hz2,
    View.ld_unit_zero (S := S128x10) hz2, View.ld_unit_zero (S := S1x10) hz2]
  rw [iblk6_0, iblk6_1, iblk6_2, iblk6_3]
  obtain ⟨-, -, -, -, -, -, -, -, e8, e9⟩ := idx_facts6 t
  funext j
  show k6_pay1 (V c main_v86) (V c main_v81) (V c main_arg8) (V c main_v87) j
     = k6_pay1 (V c main_v86) (V c main_v81) (V c main_arg8) (V c main_v87) (((cfg6.win 4).blk t).view.emb j)
  refine congrArg _ (funext fun a => Fin.ext ?_)
  match a with
  | ⟨0, _⟩ => show (j 0).val = win6_4.index t (0 : Fin 2) * 512 + 1 * (j 0).val; omega
  | ⟨1, _⟩ => show (j 1).val = win6_4.index t (1 : Fin 2) * 10 + 1 * (j 1).val; omega

/-- An index of the output array is in the point's block iff each coordinate is in the block's range. -/
theorem mem_blk6 (t : Fin cfg6.N) (i : S512x10.Idx) :
    i ∈ ((cfg6.win 4).blk t).view.set ↔ ∀ a : Fin 2, win6_4.index t a * S512x10.size a ≤ (i a).val ∧ (i a).val < win6_4.index t a * S512x10.size a + S512x10.size a := by
  show i ∈ ((View.whole main_v88).slice (win6_4.rect t)).set ↔ _
  rw [View.set_slice_whole, Rect.mem_set_unit]
  exact Iff.rfl

/-- The one block is the whole output. -/
theorem cover6 (i : S512x10.Idx) :
    ∃ t : Fin cfg6.N, (cfg6.win 4).flush t = true ∧ i ∈ ((cfg6.win 4).blk t).view.set := by
  have hi0 : (i 0).val < 512 := (i 0).isLt
  have hi1 : (i 1).val < 10 := (i 1).isLt
  obtain ⟨-, -, -, -, -, -, -, -, e8, e9⟩ := idx_facts6 t6_0
  refine ⟨t6_0, flush6_4 t6_0, ?_⟩
  rw [mem_blk6]
  intro a
  match a with
  | ⟨0, _⟩ => show win6_4.index t6_0 (0 : Fin 2) * 512 ≤ (i 0).val ∧ (i 0).val < win6_4.index t6_0 (0 : Fin 2) * 512 + 512; omega
  | ⟨1, _⟩ => show win6_4.index t6_0 (1 : Fin 2) * 10 ≤ (i 1).val ∧ (i 1).val < win6_4.index t6_0 (1 : Fin 2) * 10 + 10; omega

/-- The output array after the call: the body's stored value of the four input arrays as the call finds them. -/
theorem final6 (c : Dev nD) : (dat6 V c).arrAt 4 cfg6.N
    = k6_pay1 (V c main_v86) (V c main_v81) (V c main_arg8) (V c main_v87) :=
  (dat6 V c).arrAt_eq_of_cover 4 _ (fun t _ => flushed6_eq V c t) cover6

end Cert.KernelIdeal.Last

end
-- ==== Proof.FinalRows.lean ====
/-
  The last stage of the kernel against the tail of the reference, at the ideal values.

  Both take per-graph feature sums `s` ([512,128]), per-graph node counts `cnt` ([512]), a weight matrix
  `w` ([128,10]) and a bias `b` ([10]) and compute

      logits(g,k) = (∑ q, (s(g,q) / max(cnt g, 1)) * w(q,k)) + b k
      out(g,k)    = (logits(g,k) - M g) - log (∑ k', exp (logits(g,k') - M g)),   M g = max over k of logits(g,k).

  The kernel keeps the counts and the row maxima as [512,1] columns (a shape cast of the [512] vector) and spreads
  them over the lanes by a vector broadcast, multiplies into a zero accumulator and reduces with a neutral
  accumulator; the reference spreads by `broadcast_in_dim`, multiplies by `dot_general`, reduces from an initial
  value, and takes one more maximum with `-∞`. On the extended reals each pair is one function:
  `0 + x = x` and `max ⊥ x = x`.

  The file splits each side into the part up to the logits and the part after them (`kLogits`/`kTail`,
  `rLogits`/`rTail`), proves the two parts equal separately, and composes.
-/
import proofs.«104791_j84035330113566_1_alg».proof.Proof.Gen.KernelIdeal.Skeleton
import proofs.«104791_j84035330113566_1_alg».proof.Proof.RefRead
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.FinalRows

open Idealize.ShloMosaic Idealize.ShloMosaic.ValueIdx Idealize.SL.Sem

/-! ## The two sides, each cut at the logits -/

section KernelSide
open Cert.KernelIdeal Cert.KernelIdeal.Gen

/-- The kernel up to the logits: the mean over each graph, times the weights, plus the bias. -/
def kLogits (c : FVec Ideal S512x1 .f32) (s : FVec Ideal S512x128 .f32) (w : FVec Ideal S128x10 .f32)
    (b : FVec Ideal S1x10 .f32) : FVec Ideal S512x10 .f32 :=
  addf
    (matmul dot_S512x128_S128x10_S512x10_1_0_0_1_n_n none
      (truncf .bf16
        (divf (shapeCast S512x128 s shapeCasts_S512x128_S512x128)
          (broadcastTo S512x128
            (maximumf (shapeCast S512x1 c shapeCasts_S512x1_S512x1) (broadcast S512x1 (Scalar.ofBits .f32 0x3F800000#32)))
            broadcasts_S512x1_S512x128))
        bitsLt_bf16_f32)
      (truncf .bf16 w bitsLt_bf16_f32) (constant S512x10 .f32 0x00000000#32))
    (broadcastTo S512x10 (shapeCast S1x10 b shapeCasts_S1x10_S1x10) broadcasts_S1x10_S512x10)

/-- The kernel's row maximum, as a [512] vector. -/
def kMax (z : FVec Ideal S512x10 .f32) : FVec Ideal S512 .f32 :=
  multiReduction .maximumf [1] S512 z 0xFF800000#32 reduces_S512x10_S512 (.inl rfl) rfl

/-- The kernel's row sum, as a [512] vector. -/
def kSum (e : FVec Ideal S512x10 .f32) : FVec Ideal S512 .f32 :=
  multiReduction .add [1] S512 e 0x00000000#32 reduces_S512x10_S512 (.inl rfl) rfl

/-- A [512] vector kept as a column and spread over the ten lanes, the kernel's way. -/
def kCol (m : FVec Ideal S512 .f32) : FVec Ideal S512x10 .f32 :=
  broadcastTo S512x10 (shapeCast S512x1 m shapeCasts_S512_S512x1) broadcasts_S512x1_S512x10

/-- The logarithm of a [512] vector kept as a column, spread over the ten lanes, the kernel's way. -/
def kLogCol (m : FVec Ideal S512 .f32) : FVec Ideal S512x10 .f32 :=
  broadcastTo S512x10 (log (shapeCast S512x1 m shapeCasts_S512_S512x1)) broadcasts_S512x1_S512x10

/-- The kernel after the logits: the log-softmax of each row. -/
def kTail (z : FVec Ideal S512x10 .f32) : FVec Ideal S512x10 .f32 :=
  subf (subf z (kCol (kMax z))) (kLogCol (kSum (exp (subf z (kCol (kMax z))))))

/-- The kernel's last payload is the tail of its logits. -/
theorem k6_pay1_eq (c : FVec Ideal S512x1 .f32) (s : FVec Ideal S512x128 .f32) (w : FVec Ideal S128x10 .f32)
    (b : FVec Ideal S1x10 .f32) : k6_pay1 (F := Ideal) c s w b = kTail (kLogits c s w b) := rfl

end KernelSide

section ReferenceSide
open Cert.ReferenceIdeal Cert.ReferenceIdeal.Gen

/-- The reference up to the logits. -/
def rLogits (cnt : FVec Ideal S512 .f32) (s : FVec Ideal S512x128 .f32) (w : FVec Ideal S128x10 .f32)
    (b : FVec Ideal S10 .f32) : FVec Ideal S512x10 .f32 :=
  addf
    (Host.dotGeneral dot_S512x128_S128x10_S512x10_1_0_0_1_n_n none
      (Host.divf s
        (broadcastInDim S512x128 ![0, 1] bcast_S512x1_S512x128_0_1
          (broadcastInDim S512x1 ![0] bcast_S512_S512x1_0
            (maximumf cnt (broadcastInDim S512 ![] bcast_S_S512 (constant S_ .f32 0x3F800000#32))))))
      w)
    (broadcastInDim S512x10 ![0, 1] bcast_S1x10_S512x10_0_1 (broadcastInDim S1x10 ![1] bcast_S10_S1x10_1 b))

/-- The reference's row maximum: the reduction from `-∞`, and once more the maximum with `-∞`. -/
def rMax (z : FVec Ideal S512x10 .f32) : FVec Ideal S512 .f32 :=
  maximumf (broadcastInDim S512 ![] bcast_S_S512 (constant S_ .f32 0xFF800000#32))
    (Host.reduce FloatOps.maximumf z (constant S_ .f32 0xFF800000#32) reducesTo_S512x10_S512_d1 h_S_)

/-- The reference's row sum. -/
def rSum (e : FVec Ideal S512x10 .f32) : FVec Ideal S512 .f32 :=
  Host.reduceAdd e (constant S_ .f32 0x00000000#32) reducesTo_S512x10_S512_d1 h_S_

/-- A [512] vector spread to [512,1] and then over the ten columns, the reference's way. -/
def rCol (m : FVec Ideal S512 .f32) : FVec Ideal S512x10 .f32 :=
  broadcastInDim S512x10 ![0, 1] bcast_S512x1_S512x10_0_1 (broadcastInDim S512x1 ![0] bcast_S512_S512x1_0 m)

/-- The logarithm of a [512] vector spread to [512,1], spread over the ten columns, the reference's way. -/
def rLogCol (m : FVec Ideal S512 .f32) : FVec Ideal S512x10 .f32 :=
  broadcastInDim S512x10 ![0, 1] bcast_S512x1_S512x10_0_1 (Host.log (broadcastInDim S512x1 ![0] bcast_S512_S512x1_0 m))

/-- The reference after the logits: the log-softmax of each row. -/
def rTail (z : FVec Ideal S512x10 .f32) : FVec Ideal S512x10 .f32 :=
  subf (subf z (rCol (rMax z))) (rLogCol (rSum (Host.exp (subf z (rCol (rMax z))))))

open Cert.ReferenceIdeal.ReadP in
/-- The reference's result is the tail of its logits, whatever the sums and counts are. -/
theorem val_main_v101_eq_tail (x0 : (⟨S2x1600000, .i32⟩ : BufTy).Contents (Elt Ideal)) (x1 : (⟨S100000, .i32⟩ : BufTy).Contents (Elt Ideal)) (x2 : (⟨S1x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) :
    val_main_v101 (F := Ideal) x0 x1 x2 x3 x4 x5 x6 x7 x8 x9
      = rTail (rLogits (val_main_v91 (F := Ideal) x1) (val_main_v87 (F := Ideal) x0 x1 x2 x3 x4 x5 x6 x7) x8 x9) := rfl

end ReferenceSide

/-! ## Layout operations read at coordinates

Each reads one cast or broadcast of this stage at `(p, c)` and names the operand's entry. -/

section Layout
variable {α : Type}

/-- A [512] vector cast to a column reads, at `(p, u)`, its entry `p`. -/
theorem cast_col_apply (m : (⟨1, ![512]⟩ : Shape).Idx → α) (h : (⟨1, ![512]⟩ : Shape).ShapeCasts ⟨2, ![512, 1]⟩)
    (p : Fin 512) (u : Fin 1) : shapeCast ⟨2, ![512, 1]⟩ m h (ix2 p u) = m (ix1 p) :=
  shapeCast_apply m h (ix2 p u) (ix1 p) (by
    rw [Shape.rowMajor_val_two, Shape.rowMajor_val_one]
    show p.val = p.val * 1 + u.val
    omega)

/-- A [10] vector cast to a row reads, at `(u, c)`, its entry `c`. -/
theorem cast_row_apply (b : (⟨1, ![10]⟩ : Shape).Idx → α) (h : (⟨1, ![10]⟩ : Shape).ShapeCasts ⟨2, ![1, 10]⟩)
    (u : Fin 1) (c : Fin 10) : shapeCast ⟨2, ![1, 10]⟩ b h (ix2 u c) = b (ix1 c) :=
  shapeCast_apply b h (ix2 u c) (ix1 c) (by
    rw [Shape.rowMajor_val_two, Shape.rowMajor_val_one]
    show c.val = u.val * 10 + c.val
    omega)

/-- A [512,1] column spread over `n` lanes reads, at `(p, c)`, the column's entry of row `p`. -/
theorem spread_col_apply {n : ℕ} (v : (⟨2, ![512, 1]⟩ : Shape).Idx → α)
    (h : (⟨2, ![512, 1]⟩ : Shape).Broadcasts ⟨2, ![512, n]⟩) (p : Fin 512) (c : Fin n) :
    broadcastTo ⟨2, ![512, n]⟩ v h (ix2 p c) = v (ix2 p (0 : Fin 1)) :=
  broadcastTo_apply v h (ix2 p c) (ix2 p (0 : Fin 1)) fun a => by
    match a with
    | ⟨0, _⟩ => show p.val = if (512 : ℕ) = 1 then 0 else p.val; rw [if_neg (by decide)]
    | ⟨1, _⟩ => show (0 : ℕ) = if (1 : ℕ) = 1 then 0 else c.val; rw [if_pos rfl]

/-- A [1,10] row spread down 512 rows reads, at `(p, c)`, the row's entry `c`. -/
theorem spread_row_apply (v : (⟨2, ![1, 10]⟩ : Shape).Idx → α)
    (h : (⟨2, ![1, 10]⟩ : Shape).Broadcasts ⟨2, ![512, 10]⟩) (p : Fin 512) (c : Fin 10) :
    broadcastTo ⟨2, ![512, 10]⟩ v h (ix2 p c) = v (ix2 (0 : Fin 1) c) :=
  broadcastTo_apply v h (ix2 p c) (ix2 (0 : Fin 1) c) fun a => by
    match a with
    | ⟨0, _⟩ => show (0 : ℕ) = if (1 : ℕ) = 1 then 0 else p.val; rw [if_pos rfl]
    | ⟨1, _⟩ => show c.val = if (10 : ℕ) = 1 then 0 else c.val; rw [if_neg (by decide)]

/-- The host's [512] vector placed as a column reads, at `(p, u)`, its entry `p`. -/
theorem hcol_apply (m : (⟨1, ![512]⟩ : Shape).Idx → α)
    (h : (⟨1, ![512]⟩ : Shape).BroadcastsInDim ⟨2, ![512, 1]⟩ (![0] : Fin 1 → Fin 2)) (p : Fin 512) (u : Fin 1) :
    broadcastInDim ⟨2, ![512, 1]⟩ (![0] : Fin 1 → Fin 2) h m (ix2 p u) = m (ix1 p) :=
  broadcastInDim_apply _ h m (ix2 p u) (ix1 p) fun a => by
    match a with
    | ⟨0, _⟩ => show p.val = if (512 : ℕ) = 1 then 0 else p.val; rw [if_neg (by decide)]

/-- The host's [512,1] column spread over `n` columns reads, at `(p, c)`, the column's entry of row `p`. -/
theorem hspread_col_apply {n : ℕ} (v : (⟨2, ![512, 1]⟩ : Shape).Idx → α)
    (h : (⟨2, ![512, 1]⟩ : Shape).BroadcastsInDim ⟨2, ![512, n]⟩ (![0, 1] : Fin 2 → Fin 2)) (p : Fin 512) (c : Fin n) :
    broadcastInDim ⟨2, ![512, n]⟩ (![0, 1] : Fin 2 → Fin 2) h v (ix2 p c) = v (ix2 p (0 : Fin 1)) :=
  broadcastInDim_apply _ h v (ix2 p c) (ix2 p (0 : Fin 1)) fun a => by
    match a with
    | ⟨0, _⟩ => show p.val = if (512 : ℕ) = 1 then 0 else p.val; rw [if_neg (by decide)]
    | ⟨1, _⟩ => show (0 : ℕ) = if (1 : ℕ) = 1 then 0 else c.val; rw [if_pos rfl]

/-- The host's [10] vector placed as a row reads, at `(u, c)`, its entry `c`. -/
theorem hrow_apply (b : (⟨1, ![10]⟩ : Shape).Idx → α)
    (h : (⟨1, ![10]⟩ : Shape).BroadcastsInDim ⟨2, ![1, 10]⟩ (![1] : Fin 1 → Fin 2)) (u : Fin 1) (c : Fin 10) :
    broadcastInDim ⟨2, ![1, 10]⟩ (![1] : Fin 1 → Fin 2) h b (ix2 u c) = b (ix1 c) :=
  broadcastInDim_apply _ h b (ix2 u c) (ix1 c) fun a => by
    match a with
    | ⟨0, _⟩ => show c.val = if (10 : ℕ) = 1 then 0 else c.val; rw [if_neg (by decide)]

/-- The host's [1,10] row spread down 512 rows reads, at `(p, c)`, the row's entry `c`. -/
theorem hspread_row_apply (v : (⟨2, ![1, 10]⟩ : Shape).Idx → α)
    (h : (⟨2, ![1, 10]⟩ : Shape).BroadcastsInDim ⟨2, ![512, 10]⟩ (![0, 1] : Fin 2 → Fin 2)) (p : Fin 512) (c : Fin 10) :
    broadcastInDim ⟨2, ![512, 10]⟩ (![0, 1] : Fin 2 → Fin 2) h v (ix2 p c) = v (ix2 (0 : Fin 1) c) :=
  broadcastInDim_apply _ h v (ix2 p c) (ix2 (0 : Fin 1) c) fun a => by
    match a with
    | ⟨0, _⟩ => show (0 : ℕ) = if (1 : ℕ) = 1 then 0 else p.val; rw [if_pos rfl]
    | ⟨1, _⟩ => show c.val = if (10 : ℕ) = 1 then 0 else c.val; rw [if_neg (by decide)]

end Layout

/-! ## The tails agree -/

section Tails

/-- `-∞`'s bit pattern is the bottom of the extended reals. -/
theorem ofBits_neg_inf : Ideal.ofBits .f32 0xFF800000#32 = (⊥ : EReal) := by simp [Ideal.ofBits, Ideal.ieee]

/-- A column spread over the lanes: the kernel's cast-and-broadcast is the reference's two broadcasts. -/
theorem kCol_eq_rCol (m : FVec Ideal Cert.KernelIdeal.S512 .f32) : kCol m = rCol m := by
  funext j
  obtain ⟨p, c, rfl⟩ : ∃ (p : Fin 512) (c : Fin 10), j = ix2 p c := ⟨j 0, j 1, eq_ix2 j⟩
  unfold kCol rCol
  rw [spread_col_apply, cast_col_apply, hspread_col_apply, hcol_apply]

/-- The same with the logarithm taken on the column. -/
theorem kLogCol_eq_rLogCol (m : FVec Ideal Cert.KernelIdeal.S512 .f32) : kLogCol m = rLogCol m := by
  funext j
  obtain ⟨p, c, rfl⟩ : ∃ (p : Fin 512) (c : Fin 10), j = ix2 p c := ⟨j 0, j 1, eq_ix2 j⟩
  unfold kLogCol rLogCol
  rw [spread_col_apply, hspread_col_apply]
  show Ideal.log (shapeCast _ m _ (ix2 p (0 : Fin 1))) = Ideal.log (broadcastInDim _ _ _ m (ix2 p (0 : Fin 1)))
  rw [cast_col_apply, hcol_apply]

/-- The exponential is one function on both sides. -/
theorem exp_eq_hostExp (x : FVec Ideal Cert.KernelIdeal.S512x10 .f32) : exp x = Host.exp x := rfl

/-- The row sums: the kernel's neutral accumulator is dropped, the reference's initial value is zero. -/
theorem kSum_eq_rSum (e : FVec Ideal Cert.KernelIdeal.S512x10 .f32) : kSum e = rSum e :=
  multiReduction_add_eq_hostReduceAdd e _ Cert.KernelIdeal.Gen.reduces_S512x10_S512 (.inl rfl) rfl
    (constant Cert.ReferenceIdeal.S_ .f32 0x00000000#32) Cert.ReferenceIdeal.Gen.reducesTo_S512x10_S512_d1
    Cert.ReferenceIdeal.Gen.h_S_ Ideal.ofBits_zero_f32

/-- The row maxima: both fold `max` from `-∞` over the row, and the reference's further maximum with `-∞` changes nothing. -/
theorem kMax_eq_rMax (z : FVec Ideal Cert.KernelIdeal.S512x10 .f32) : kMax z = rMax z := by
  funext j
  unfold kMax rMax
  refine (Ideal.multiReduction_maximumf_single z _ Cert.KernelIdeal.Gen.reduces_S512x10_S512 (.inl rfl) rfl j).trans ?_
  refine Eq.symm ?_
  rw [maximumf_apply, Host.reduce_eq_fold_single FloatOps.maximumf z _ Cert.ReferenceIdeal.Gen.reducesTo_S512x10_S512_d1
    Cert.KernelIdeal.Gen.reduces_S512x10_S512 Cert.ReferenceIdeal.Gen.h_S_ j, ValueIdx.broadcastInDim_scalar_apply]
  show max (Ideal.ofBits .f32 0xFF800000#32) (Finset.fold max (Ideal.ofBits .f32 0xFF800000#32) _ _)
    = Finset.fold max (Ideal.ofBits .f32 0xFF800000#32) _ _
  rw [ofBits_neg_inf]
  exact max_eq_right bot_le

/-- The log-softmax of the rows is one function of the logits on both sides. -/
theorem kTail_eq_rTail (z : FVec Ideal Cert.KernelIdeal.S512x10 .f32) : kTail z = rTail z := by
  unfold kTail rTail
  rw [kMax_eq_rMax, kCol_eq_rCol, exp_eq_hostExp, kSum_eq_rSum, kLogCol_eq_rLogCol]

end Tails

/-! ## The logits agree -/

section Logits

/-- The denominators spread over the 128 lanes: the counts' maximum with one, taken on the column by the kernel and on the
    vector by the reference. -/
theorem den_eq (cnt : FVec Ideal Cert.KernelIdeal.S512 .f32)
    (hA : Cert.KernelIdeal.S512.ShapeCasts Cert.KernelIdeal.S512x1) (hB : Cert.KernelIdeal.S512x1.ShapeCasts Cert.KernelIdeal.S512x1)
    (hC : Cert.KernelIdeal.S512x1.Broadcasts Cert.KernelIdeal.S512x128)
    (hD : Cert.ReferenceIdeal.S512x1.BroadcastsInDim Cert.ReferenceIdeal.S512x128 (![0, 1] : Fin 2 → Fin 2))
    (hE : Cert.ReferenceIdeal.S512.BroadcastsInDim Cert.ReferenceIdeal.S512x1 (![0] : Fin 1 → Fin 2))
    (hF : Cert.ReferenceIdeal.S_.BroadcastsInDim Cert.ReferenceIdeal.S512 (![] : Fin 0 → Fin 1)) :
    broadcastTo Cert.KernelIdeal.S512x128
        (maximumf (shapeCast Cert.KernelIdeal.S512x1 (shapeCast Cert.KernelIdeal.S512x1 cnt hA) hB)
          (broadcast Cert.KernelIdeal.S512x1 (Scalar.ofBits (F := Ideal) .f32 0x3F800000#32))) hC
      = broadcastInDim Cert.ReferenceIdeal.S512x128 ![0, 1] hD
          (broadcastInDim Cert.ReferenceIdeal.S512x1 ![0] hE
            (maximumf cnt (broadcastInDim Cert.ReferenceIdeal.S512 ![] hF (constant Cert.ReferenceIdeal.S_ .f32 0x3F800000#32)))) := by
  funext j
  obtain ⟨p, q, rfl⟩ : ∃ (p : Fin 512) (q : Fin 128), j = ix2 p q := ⟨j 0, j 1, eq_ix2 j⟩
  rw [spread_col_apply, hspread_col_apply, hcol_apply, maximumf_apply, maximumf_apply, shapeCast_self, cast_col_apply,
    ValueIdx.broadcastInDim_scalar_apply]
  rfl

/-- The bias laid along every row: the kernel's cast to a row and broadcast, the reference's two broadcasts. -/
theorem bias_eq (b : FVec Ideal Cert.KernelIdeal.S10 .f32)
    (hA : Cert.KernelIdeal.S10.ShapeCasts Cert.KernelIdeal.S1x10) (hB : Cert.KernelIdeal.S1x10.ShapeCasts Cert.KernelIdeal.S1x10)
    (hC : Cert.KernelIdeal.S1x10.Broadcasts Cert.KernelIdeal.S512x10)
    (hD : Cert.ReferenceIdeal.S1x10.BroadcastsInDim Cert.ReferenceIdeal.S512x10 (![0, 1] : Fin 2 → Fin 2))
    (hE : Cert.ReferenceIdeal.S10.BroadcastsInDim Cert.ReferenceIdeal.S1x10 (![1] : Fin 1 → Fin 2)) :
    broadcastTo Cert.KernelIdeal.S512x10 (shapeCast Cert.KernelIdeal.S1x10 (shapeCast Cert.KernelIdeal.S1x10 b hA) hB) hC
      = broadcastInDim Cert.ReferenceIdeal.S512x10 ![0, 1] hD (broadcastInDim Cert.ReferenceIdeal.S1x10 ![1] hE b) := by
  funext j
  obtain ⟨p, c, rfl⟩ : ∃ (p : Fin 512) (c : Fin 10), j = ix2 p c := ⟨j 0, j 1, eq_ix2 j⟩
  rw [spread_row_apply, shapeCast_self, cast_row_apply, hspread_row_apply, hrow_apply]

/-- The quotient is one function on both sides. -/
theorem divf_eq_hostDivf (x y : FVec Ideal Cert.KernelIdeal.S512x128 .f32) : divf x y = Host.divf x y := rfl

/-- The product: into a zero accumulator on the kernel's side, with none on the reference's; the operands' narrowing
    to bf16 is the identity on the ideal values. -/
theorem matmul_eq_dot (P : FVec Ideal Cert.KernelIdeal.S512x128 .f32) (w : FVec Ideal Cert.KernelIdeal.S128x10 .f32) :
    matmul Cert.KernelIdeal.dot_S512x128_S128x10_S512x10_1_0_0_1_n_n none
        (truncf .bf16 P Cert.KernelIdeal.Gen.bitsLt_bf16_f32) (truncf .bf16 w Cert.KernelIdeal.Gen.bitsLt_bf16_f32)
        (constant Cert.KernelIdeal.S512x10 .f32 0x00000000#32)
      = Host.dotGeneral Cert.ReferenceIdeal.dot_S512x128_S128x10_S512x10_1_0_0_1_n_n none P w := by
  funext j
  refine (Ideal.matmul_constant_zero_apply Cert.KernelIdeal.dot_S512x128_S128x10_S512x10_1_0_0_1_n_n none
    (truncf .bf16 P Cert.KernelIdeal.Gen.bitsLt_bf16_f32) (truncf .bf16 w Cert.KernelIdeal.Gen.bitsLt_bf16_f32) j).trans ?_
  refine Eq.symm ?_
  refine (Ideal.dotGeneral_apply Cert.ReferenceIdeal.dot_S512x128_S128x10_S512x10_1_0_0_1_n_n none _ P w j).trans ?_
  rfl

/-- The logits are one function of the counts, the sums, the weights and the bias on both sides. -/
theorem kLogits_eq_rLogits (cnt : FVec Ideal Cert.KernelIdeal.S512 .f32) (s : FVec Ideal Cert.KernelIdeal.S512x128 .f32)
    (w : FVec Ideal Cert.KernelIdeal.S128x10 .f32) (b : FVec Ideal Cert.KernelIdeal.S10 .f32) :
    kLogits (shapeCast Cert.KernelIdeal.S512x1 cnt Cert.KernelIdeal.Gen.shapeCasts_S512_S512x1) s w
        (shapeCast Cert.KernelIdeal.S1x10 b Cert.KernelIdeal.Gen.shapeCasts_S10_S1x10)
      = rLogits cnt s w b := by
  unfold kLogits rLogits
  rw [den_eq, bias_eq, shapeCast_self, divf_eq_hostDivf, matmul_eq_dot]

end Logits

/-! ## The stage -/

section Stage
open Cert.ReferenceIdeal Cert.ReferenceIdeal.ReadP

/-- The kernel's last payload, on the reference's per-graph sums and counts (the counts as a column, the bias as a
    row), is the reference's result. -/
theorem final_eq (x0 : (⟨S2x1600000, .i32⟩ : BufTy).Contents (Elt Ideal)) (x1 : (⟨S100000, .i32⟩ : BufTy).Contents (Elt Ideal)) (x2 : (⟨S1x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) :
    Cert.KernelIdeal.Gen.k6_pay1 (F := Ideal)
        (shapeCast Cert.KernelIdeal.S512x1 (val_main_v91 (F := Ideal) x1) Cert.KernelIdeal.Gen.shapeCasts_S512_S512x1)
        (val_main_v87 (F := Ideal) x0 x1 x2 x3 x4 x5 x6 x7)
        x8
        (shapeCast Cert.KernelIdeal.S1x10 x9 Cert.KernelIdeal.Gen.shapeCasts_S10_S1x10)
      = val_main_v101 (F := Ideal) x0 x1 x2 x3 x4 x5 x6 x7 x8 x9 := by
  rw [k6_pay1_eq, val_main_v101_eq_tail, kTail_eq_rTail]
  exact congrArg rTail (kLogits_eq_rLogits (val_main_v91 (F := Ideal) x1) (val_main_v87 (F := Ideal) x0 x1 x2 x3 x4 x5 x6 x7) x8 x9)

end Stage

end Cert.FinalRows

end
-- ==== Proof.LibConcatCongr.lean ====
/-
  A congruence for a two-piece `concatenate`: its operands sit inside a list of shape-indexed pairs, which a
  simplification pass does not enter on its own. With this lemma registered the pass rewrites inside the operands, so a
  chain of host operations read by `simp` is read through its concatenations too.
-/
import Idealize.ShloMosaic.PureOps

noncomputable section

namespace Idealize.ShloMosaic

/-- Rewriting the two operands of a two-piece concatenation along an axis: equal pieces give equal concatenations
    (the shape fact does not mention the pieces). Registered as a congruence so that `simp` enters the pieces. -/
@[congr] theorem concatenate_pair_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Idealize.ShloMosaic

end
-- ==== Proof.KValue.lean ====
/-
  The idealized kernel's result as the reference's own stages. Walking the program's fourteen segments in order, each
  buffer the next segment reads is identified with the stage of the reference that computes the same array from the
  same arguments: the edge lists with self-loops and the symmetric normalisation (host operations, the same in both
  programs); per layer, the dense transform (a pallas_call against the reference's dot_general: both the sum over the
  contracted axis of feature times weight), the gather, scaling and scatter-add along the edges (host operations, the
  same), and bias with relu (a pallas_call against the reference's broadcast add and maximum with zero); then the
  per-graph sums and counts (host operations) and the pooled classifier with its log-softmax (the last pallas_call).
-/
import proofs.«104791_j84035330113566_1_alg».proof.Proof.KCarry
import proofs.«104791_j84035330113566_1_alg».proof.Proof.KBiasRelu
import proofs.«104791_j84035330113566_1_alg».proof.Proof.KMat
import proofs.«104791_j84035330113566_1_alg».proof.Proof.KLast
import proofs.«104791_j84035330113566_1_alg».proof.Proof.RefRead
import proofs.«104791_j84035330113566_1_alg».proof.Proof.FinalRows
import proofs.«104791_j84035330113566_1_alg».proof.Proof.LibConcatCongr
import Idealize.ShloMosaic.Lib.StableHlo.Run
import Idealize.ShloMosaic.Lib.Pipeline.Value
import Idealize.ShloMosaic.Lib.ValueIdx

set_option maxRecDepth 16384

noncomputable section

namespace Cert.Bridge

open Cert.KernelIdeal Cert.KernelIdeal.Gen
open Cert.ReferenceIdeal.ReadP
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg) (c : Dev nD)

/-! ## The ten arguments as launched -/
abbrev a0 : (⟨Cert.ReferenceIdeal.S2x1600000, .i32⟩ : BufTy).Contents (Elt Ideal) := m ((c.tc : Thread nD τ).loc main_arg0)
abbrev a1 : (⟨Cert.ReferenceIdeal.S100000, .i32⟩ : BufTy).Contents (Elt Ideal) := m ((c.tc : Thread nD τ).loc main_arg1)
abbrev a2 : (⟨Cert.ReferenceIdeal.S1x128, .f32⟩ : BufTy).Contents (Elt Ideal) := m ((c.tc : Thread nD τ).loc main_arg2)
abbrev a3 : (⟨Cert.ReferenceIdeal.S128, .f32⟩ : BufTy).Contents (Elt Ideal) := m ((c.tc : Thread nD τ).loc main_arg3)
abbrev a4 : (⟨Cert.ReferenceIdeal.S128x128, .f32⟩ : BufTy).Contents (Elt Ideal) := m ((c.tc : Thread nD τ).loc main_arg4)
abbrev a5 : (⟨Cert.ReferenceIdeal.S128, .f32⟩ : BufTy).Contents (Elt Ideal) := m ((c.tc : Thread nD τ).loc main_arg5)
abbrev a6 : (⟨Cert.ReferenceIdeal.S128x128, .f32⟩ : BufTy).Contents (Elt Ideal) := m ((c.tc : Thread nD τ).loc main_arg6)
abbrev a7 : (⟨Cert.ReferenceIdeal.S128, .f32⟩ : BufTy).Contents (Elt Ideal) := m ((c.tc : Thread nD τ).loc main_arg7)
abbrev a8 : (⟨Cert.ReferenceIdeal.S128x10, .f32⟩ : BufTy).Contents (Elt Ideal) := m ((c.tc : Thread nD τ).loc main_arg8)
abbrev a9 : (⟨Cert.ReferenceIdeal.S10, .f32⟩ : BufTy).Contents (Elt Ideal) := m ((c.tc : Thread nD τ).loc main_arg9)

/-! ## Two layout reads -/

/-- A [128] vector cast to one row [1, 128] reads, at (0, q), the vector at q. -/
theorem shapeCast_row_apply {α : Type} (x : S128.Idx → α) (h : S128.ShapeCasts S1x128) (j : S1x128.Idx) :
    shapeCast S1x128 x h j = x (ix1 (j 1)) :=
  shapeCast_apply x h j (ix1 (j 1)) (by
    have h1 : (j 0).val < 1 := (j 0).isLt
    have h0 : (j 0).val = 0 := by omega
    rw [Shape.rowMajor_val_one, Shape.rowMajor_val_two]
    show (j 1).val = (j 0).val * 128 + (j 1).val
    rw [h0]; omega)

/-- Bias and relu against a [128] bias laid as a row: entry (r, q) is max(x(r, q) + b(q), 0). -/
theorem biasRelu_row_apply (x : S100000x128.Idx → EReal) (b : S128.Idx → EReal) (i : S100000x128.Idx) :
    Rows.biasRelu (F := Ideal) x (shapeCast S1x128 b shapeCasts_S128_S1x128) i
      = FloatOps.maximumf (F := Ideal) (FloatOps.addf (F := Ideal) (x i) (b (ix1 (i 1)))) (FloatOps.ofBits (F := Ideal) .f32 0x00000000#32) := by
  unfold Rows.biasRelu
  rw [shapeCast_row_apply]
  rfl

/-! ## Before the first pallas_call: the edge lists, the normalisation, the constant features -/

/-- The source indices of the edges with self-loops. -/
theorem src_at1 : W1 m ρ c (Proc.devRef .tc main_v3) = val_main_v3 (F := Ideal) (a0 m c) := by
  show StableHlo.after hostOps0 (W0 m ρ c) (Proc.devRef .tc main_v3) = _
  after_results_simp
  rfl

/-- The destination indices of the edges with self-loops. -/
theorem dst_at1 : W1 m ρ c (Proc.devRef .tc main_v6) = val_main_v6 (F := Ideal) (a0 m c) := by
  show StableHlo.after hostOps0 (W0 m ρ c) (Proc.devRef .tc main_v6) = _
  after_results_simp
  rfl

/-- Which nodes have positive in-degree. -/
theorem pos_at1 : W1 m ρ c (Proc.devRef .tc main_v12) = val_main_v12 (F := Ideal) (a0 m c) := by
  show StableHlo.after hostOps0 (W0 m ρ c) (Proc.devRef .tc main_v12) = _
  after_results_simp
  rfl

/-- The inverse square roots of the in-degrees. -/
theorem rsqrt_at1 : W1 m ρ c (Proc.devRef .tc main_v13) = val_main_v13 (F := Ideal) (a0 m c) := by
  show StableHlo.after hostOps0 (W0 m ρ c) (Proc.devRef .tc main_v13) = _
  after_results_simp
  rfl

/-- The zero the selection falls back to. -/
theorem zero_at1 : W1 m ρ c (Proc.devRef .tc main_cst_2) = val_main_cst_2 (F := Ideal) := by
  show StableHlo.after hostOps0 (W0 m ρ c) (Proc.devRef .tc main_cst_2) = _
  after_results_simp
  rfl

section AnyInstance
variable {F : FTy → Type} [FloatOps F] (Wv : Valuation τ sig (Elt F))

/-- The selection, over any contents and any float instance: where the condition holds the first operand, elsewhere the
    scalar spread over the vector. -/
theorem where_result : StableHlo.after (hostOps0_1 (F := F)) Wv (Proc.devRef .tc main_v14)
    = select (Wv (Proc.devRef .tc main_v12)) (Wv (Proc.devRef .tc main_v13))
        (broadcastInDim S100000 ![] bcast_S_S100000 (Wv (Proc.devRef .tc main_cst_2))) := by
  after_results_simp
  rfl

end AnyInstance

/-- The inverse square roots of the in-degrees, zero where a node has none. -/
theorem dinv_at2 : W2 m ρ c (Proc.devRef .tc main_v14) = val_main_v14 (F := Ideal) (a0 m c) := by
  show StableHlo.after hostOps0_1 (W1 m ρ c) (Proc.devRef .tc main_v14) = _
  rw [where_result, pos_at1 m ρ c, rsqrt_at1 m ρ c, zero_at1 m ρ c]
  rfl

/-- The symmetric normalisation of the edges: inverse square roots of the in-degrees at both ends, multiplied. -/
theorem nrm_at3 : W3 m ρ c (Proc.devRef .tc main_v29) = val_main_v29 (F := Ideal) (a0 m c) := by
  have e3 := (Keep.W2_v3 m ρ c).trans (src_at1 m ρ c)
  have e6 := (Keep.W2_v6 m ρ c).trans (dst_at1 m ρ c)
  have e14 := dinv_at2 m ρ c
  show StableHlo.after hostOps0_2 (W2 m ρ c) (Proc.devRef .tc main_v29) = _
  generalize W2 m ρ c = Wv at e3 e6 e14 ⊢
  after_results_simp
  rw [e3, e6, e14]
  rfl

/-- The all-ones node features. -/
theorem ones_at3 : W3 m ρ c (Proc.devRef .tc main_v30) = val_main_v30 (F := Ideal) := by
  show StableHlo.after hostOps0_2 (StableHlo.after hostOps0_1 (StableHlo.after hostOps0 (W0 m ρ c))) (Proc.devRef .tc main_v30) = _
  after_results_simp
  rfl

/-! ## Layer 1 -/

/-- The first dense transform: the all-ones features times the first weights. -/
theorem h1_at4 : W4 m ρ c (Proc.devRef .tc main_v31) = val_main_v31 (F := Ideal) (a2 m c) := by
  refine (W4_arr m ρ c 2).trans ?_
  rw [Mat.final0 (V3 m ρ) c]
  show Mat.matProd (W3 m ρ c (Proc.devRef .tc main_v30)) (W3 m ρ c (Proc.devRef .tc main_arg2)) = _
  rw [ones_at3 m ρ c, Keep.W3_arg2 m ρ c]
  funext i
  rw [val_main_v31_apply]
  refine Finset.sum_congr rfl fun k _ => ?_
  have el : (ix2 (i 0) k : Cert.ReferenceIdeal.S100000x1.Idx) = lidx_main_v31 i k := funext fun a => by match a with | ⟨0, _⟩ => rfl | ⟨1, _⟩ => rfl
  have er : (ix2 k (i 1) : Cert.ReferenceIdeal.S1x128.Idx) = ridx_main_v31 i k := funext fun a => by match a with | ⟨0, _⟩ => rfl | ⟨1, _⟩ => rfl
  exact congrArg₂ (fun u v => ((val_main_v30 (F := Ideal)) : Cert.ReferenceIdeal.S100000x1.Idx → EReal) u * (a2 m c : Cert.ReferenceIdeal.S1x128.Idx → EReal) v) el er

/-- Layer 1's messages gathered along the edges, scaled and summed at their destinations. -/
theorem agg1_at5 : W5 m ρ c (Proc.devRef .tc main_v44) = val_main_v44 (F := Ideal) (a0 m c) (a2 m c) := by
  show StableHlo.after hostOps1 (W4 m ρ c) (Proc.devRef .tc main_v44) = _
  after_results_simp
  rw [h1_at4 m ρ c, Keep.W4_v3 m ρ c, src_at1 m ρ c, Keep.W4_v6 m ρ c, dst_at1 m ρ c, Keep.W4_v29 m ρ c, nrm_at3 m ρ c]
  rfl

/-- Layer 1's bias laid as a row. -/
theorem b1_at5 : W5 m ρ c (Proc.devRef .tc main_v45) = shapeCast S1x128 (a3 m c) shapeCasts_S128_S1x128 := by
  show StableHlo.after hostOps1 (W4 m ρ c) (Proc.devRef .tc main_v45) = _
  after_results_simp
  rw [Keep.W4_arg3 m ρ c]
  rfl

/-- Layer 1's output: bias and relu. -/
theorem x1_at6 : W6 m ρ c (Proc.devRef .tc main_v46) = val_main_v48 (F := Ideal) (a0 m c) (a2 m c) (a3 m c) := by
  refine (W6_arr m ρ c 2).trans ?_
  rw [Rows.final1 (V5 m ρ) c]
  show Rows.biasRelu (W5 m ρ c (Proc.devRef .tc main_v44)) (W5 m ρ c (Proc.devRef .tc main_v45)) = _
  rw [agg1_at5 m ρ c, b1_at5 m ρ c]
  funext i
  rw [biasRelu_row_apply, val_main_v48_apply, val_main_v47_apply, val_main_v46_apply, val_main_v45_apply, val_main_call1_v0_apply, val_main_call1_cst_apply]
  have e : idx_main_v45 (idx_main_v46 i) = ix1 (i 1) := funext fun a => by match a with | ⟨0, _⟩ => rfl
  rw [e]
  rfl

/-! ## Layer 2 -/

/-- The second dense transform. -/
theorem h2_at7 : W7 m ρ c (Proc.devRef .tc main_v47) = val_main_v49 (F := Ideal) (a0 m c) (a2 m c) (a3 m c) (a4 m c) := by
  refine (W7_arr m ρ c 2).trans ?_
  rw [Mat.final2 (V6 m ρ) c]
  show Mat.matProd (W6 m ρ c (Proc.devRef .tc main_v46)) (W6 m ρ c (Proc.devRef .tc main_arg4)) = _
  rw [x1_at6 m ρ c, Keep.W6_arg4 m ρ c]
  funext i
  rw [val_main_v49_apply]
  refine Finset.sum_congr rfl fun k _ => ?_
  have el : (ix2 (i 0) k : Cert.ReferenceIdeal.S100000x128.Idx) = lidx_main_v49 i k := funext fun a => by match a with | ⟨0, _⟩ => rfl | ⟨1, _⟩ => rfl
  have er : (ix2 k (i 1) : Cert.ReferenceIdeal.S128x128.Idx) = ridx_main_v49 i k := funext fun a => by match a with | ⟨0, _⟩ => rfl | ⟨1, _⟩ => rfl
  exact congrArg₂ (fun u v => ((val_main_v48 (F := Ideal) (a0 m c) (a2 m c) (a3 m c)) : Cert.ReferenceIdeal.S100000x128.Idx → EReal) u * (a4 m c : Cert.ReferenceIdeal.S128x128.Idx → EReal) v) el er

/-- Layer 2's messages gathered along the edges, scaled and summed at their destinations. -/
theorem agg2_at8 : W8 m ρ c (Proc.devRef .tc main_v60) = val_main_v62 (F := Ideal) (a0 m c) (a2 m c) (a3 m c) (a4 m c) := by
  show StableHlo.after hostOps3 (W7 m ρ c) (Proc.devRef .tc main_v60) = _
  after_results_simp
  rw [h2_at7 m ρ c, Keep.W7_v3 m ρ c, src_at1 m ρ c, Keep.W7_v6 m ρ c, dst_at1 m ρ c, Keep.W7_v29 m ρ c, nrm_at3 m ρ c]
  rfl

/-- Layer 2's bias laid as a row. -/
theorem b2_at8 : W8 m ρ c (Proc.devRef .tc main_v61) = shapeCast S1x128 (a5 m c) shapeCasts_S128_S1x128 := by
  show StableHlo.after hostOps3 (W7 m ρ c) (Proc.devRef .tc main_v61) = _
  after_results_simp
  rw [Keep.W7_arg5 m ρ c]
  rfl

/-- Layer 2's output: bias and relu. -/
theorem x2_at9 : W9 m ρ c (Proc.devRef .tc main_v62) = val_main_v66 (F := Ideal) (a0 m c) (a2 m c) (a3 m c) (a4 m c) (a5 m c) := by
  refine (W9_arr m ρ c 2).trans ?_
  rw [Rows.final3 (V8 m ρ) c]
  show Rows.biasRelu (W8 m ρ c (Proc.devRef .tc main_v60)) (W8 m ρ c (Proc.devRef .tc main_v61)) = _
  rw [agg2_at8 m ρ c, b2_at8 m ρ c]
  funext i
  rw [biasRelu_row_apply, val_main_v66_apply, val_main_v65_apply, val_main_v64_apply, val_main_v63_apply, val_main_call2_v0_apply, val_main_call2_cst_apply]
  have e : idx_main_v63 (idx_main_v64 i) = ix1 (i 1) := funext fun a => by match a with | ⟨0, _⟩ => rfl
  rw [e]
  rfl

/-! ## Layer 3 -/

/-- The third dense transform. -/
theorem h3_at10 : W10 m ρ c (Proc.devRef .tc main_v63) = val_main_v67 (F := Ideal) (a0 m c) (a2 m c) (a3 m c) (a4 m c) (a5 m c) (a6 m c) := by
  refine (W10_arr m ρ c 2).trans ?_
  rw [Mat.final4 (V9 m ρ) c]
  show Mat.matProd (W9 m ρ c (Proc.devRef .tc main_v62)) (W9 m ρ c (Proc.devRef .tc main_arg6)) = _
  rw [x2_at9 m ρ c, Keep.W9_arg6 m ρ c]
  funext i
  rw [val_main_v67_apply]
  refine Finset.sum_congr rfl fun k _ => ?_
  have el : (ix2 (i 0) k : Cert.ReferenceIdeal.S100000x128.Idx) = lidx_main_v67 i k := funext fun a => by match a with | ⟨0, _⟩ => rfl | ⟨1, _⟩ => rfl
  have er : (ix2 k (i 1) : Cert.ReferenceIdeal.S128x128.Idx) = ridx_main_v67 i k := funext fun a => by match a with | ⟨0, _⟩ => rfl | ⟨1, _⟩ => rfl
  exact congrArg₂ (fun u v => ((val_main_v66 (F := Ideal) (a0 m c) (a2 m c) (a3 m c) (a4 m c) (a5 m c)) : Cert.ReferenceIdeal.S100000x128.Idx → EReal) u * (a6 m c : Cert.ReferenceIdeal.S128x128.Idx → EReal) v) el er

/-- Layer 3's messages gathered along the edges, scaled and summed at their destinations. -/
theorem agg3_at11 : W11 m ρ c (Proc.devRef .tc main_v76) = val_main_v80 (F := Ideal) (a0 m c) (a2 m c) (a3 m c) (a4 m c) (a5 m c) (a6 m c) := by
  show StableHlo.after hostOps5 (W10 m ρ c) (Proc.devRef .tc main_v76) = _
  after_results_simp
  rw [h3_at10 m ρ c, Keep.W10_v3 m ρ c, src_at1 m ρ c, Keep.W10_v6 m ρ c, dst_at1 m ρ c, Keep.W10_v29 m ρ c, nrm_at3 m ρ c]
  rfl

/-- Layer 3's bias laid as a row. -/
theorem b3_at11 : W11 m ρ c (Proc.devRef .tc main_v77) = shapeCast S1x128 (a7 m c) shapeCasts_S128_S1x128 := by
  show StableHlo.after hostOps5 (W10 m ρ c) (Proc.devRef .tc main_v77) = _
  after_results_simp
  rw [Keep.W10_arg7 m ρ c]
  rfl

/-- Layer 3's output: bias and relu. -/
theorem x3_at12 : W12 m ρ c (Proc.devRef .tc main_v78) = val_main_v84 (F := Ideal) (a0 m c) (a2 m c) (a3 m c) (a4 m c) (a5 m c) (a6 m c) (a7 m c) := by
  refine (W12_arr m ρ c 2).trans ?_
  rw [Rows.final5 (V11 m ρ) c]
  show Rows.biasRelu (W11 m ρ c (Proc.devRef .tc main_v76)) (W11 m ρ c (Proc.devRef .tc main_v77)) = _
  rw [agg3_at11 m ρ c, b3_at11 m ρ c]
  funext i
  rw [biasRelu_row_apply, val_main_v84_apply, val_main_v83_apply, val_main_v82_apply, val_main_v81_apply, val_main_call3_v0_apply, val_main_call3_cst_apply]
  have e : idx_main_v81 (idx_main_v82 i) = ix1 (i 1) := funext fun a => by match a with | ⟨0, _⟩ => rfl
  rw [e]
  rfl

/-! ## Pooling, the classifier and the log-softmax -/

/-- The node features summed per graph. -/
theorem sums_at13 : W13 m ρ c (Proc.devRef .tc main_v81) = val_main_v87 (F := Ideal) (a0 m c) (a1 m c) (a2 m c) (a3 m c) (a4 m c) (a5 m c) (a6 m c) (a7 m c) := by
  show StableHlo.after hostOps6 (W12 m ρ c) (Proc.devRef .tc main_v81) = _
  after_results_simp
  rw [x3_at12 m ρ c, Keep.W12_arg1 m ρ c]
  rfl

/-- The node counts per graph, as a column. -/
theorem counts_at13 : W13 m ρ c (Proc.devRef .tc main_v86) = shapeCast S512x1 (val_main_v91 (F := Ideal) (a1 m c)) shapeCasts_S512_S512x1 := by
  show StableHlo.after hostOps6 (W12 m ρ c) (Proc.devRef .tc main_v86) = _
  after_results_simp
  rw [Keep.W12_arg1 m ρ c]
  rfl

/-- The classifier bias laid as a row. -/
theorem bp_at13 : W13 m ρ c (Proc.devRef .tc main_v87) = shapeCast S1x10 (a9 m c) shapeCasts_S10_S1x10 := by
  show StableHlo.after hostOps6 (W12 m ρ c) (Proc.devRef .tc main_v87) = _
  after_results_simp
  rw [Keep.W12_arg9 m ρ c]
  rfl

/-- THE RESULT: the last boundary's contents at the result buffer are the reference's last stage of the ten arguments. -/
theorem result_at14 : W14 m ρ c (Proc.devRef .tc main_v88) = val_main_v101 (F := Ideal) (a0 m c) (a1 m c) (a2 m c) (a3 m c) (a4 m c) (a5 m c) (a6 m c) (a7 m c) (a8 m c) (a9 m c) := by
  refine (W14_arr m ρ c 4).trans ?_
  rw [Last.final6 (V13 m ρ) c]
  show k6_pay1 (F := Ideal) (W13 m ρ c (Proc.devRef .tc main_v86)) (W13 m ρ c (Proc.devRef .tc main_v81)) (W13 m ρ c (Proc.devRef .tc main_arg8)) (W13 m ρ c (Proc.devRef .tc main_v87)) = _
  rw [counts_at13 m ρ c, sums_at13 m ρ c, Keep.W13_arg8 m ρ c, bp_at13 m ρ c]
  exact Cert.FinalRows.final_eq (a0 m c) (a1 m c) (a2 m c) (a3 m c) (a4 m c) (a5 m c) (a6 m c) (a7 m c) (a8 m c) (a9 m c)

end Cert.Bridge

end
-- ==== Proof.lean ====
/-
  A three-layer graph convolution network with mean pooling and a log-softmax classifier: the kernel (seven pallas_calls
  — three dense transforms, three bias-and-relu passes, and one call for pooling, classifier and log-softmax — among the
  gathers and scatter-adds along the edges, which stay host operations) against the plain jnp reference.

  On extended reals the two compute one function of the ten arguments. The edge lists with self-loops, the symmetric
  normalisation, the gather / scale / scatter-add of each layer and the per-graph sums and counts are the same host
  operations in both programs. A dense transform is, entry by entry, the sum over the contracted axis of feature times
  weight in both (the matrix unit accumulating from zero over row blocks that tile the array; the host's dot_general),
  the casts to bf16 being the identity. Bias with relu is max(x + b, 0) entry by entry in both. The last call divides the
  per-graph sums by max(count, 1), applies the classifier, and subtracts the row maximum and the logarithm of the row sum
  of exponentials, as the reference's log-softmax does; the reference's extra maximum with minus infinity changes nothing.
  No step uses finiteness of the inputs.

  The three frames: the two kernels' by the launch over their fourteen segments, the reference's by its run. The idealized
  kernel is the kernel's own text read on extended reals (no rewrite was applied), so the preservation claim is trivial.
  The algebraic claim: the kernel's run ends with the result buffer at the last boundary's contents, which are the
  reference's last stage of the arguments (Proof/KValue.lean, segment by segment), and the reference's run ends at the
  same stage of arguments that agree.
-/
import proofs.«104791_j84035330113566_1_alg».proof.Defs
import proofs.«104791_j84035330113566_1_alg».proof.Proof.Gen.Kernel
import proofs.«104791_j84035330113566_1_alg».proof.Proof.Gen.Kernel.Frame
import proofs.«104791_j84035330113566_1_alg».proof.Proof.Gen.KernelIdeal
import proofs.«104791_j84035330113566_1_alg».proof.Proof.Gen.KernelIdeal.Frame
import proofs.«104791_j84035330113566_1_alg».proof.Proof.Gen.ReferenceIdeal
import proofs.«104791_j84035330113566_1_alg».proof.Proof.Gen.Pre_finite_inputs
import proofs.«104791_j84035330113566_1_alg».proof.Proof.RefRun
import proofs.«104791_j84035330113566_1_alg».proof.Proof.RefRead
import proofs.«104791_j84035330113566_1_alg».proof.Proof.KRun
import proofs.«104791_j84035330113566_1_alg».proof.Proof.KValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten: the idealization is the program's own text on extended reals. -/
theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.KernelIdeal.Gen.W14 m ρ c (Proc.devRef .tc Cert.KernelIdeal.main_v88),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  show Cert.ReferenceIdeal.ValueP.res_main_v101 m' c = Cert.KernelIdeal.Gen.W14 m ρ c (Proc.devRef .tc Cert.KernelIdeal.main_v88)
  rw [Cert.ReferenceIdeal.ReadP.val_main_v101_eq, Cert.Bridge.result_at14 m ρ c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
